-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x200 : Shape := ⟨2, ![32, 200]⟩
abbrev S32x200x200 : Shape := ⟨3, ![32, 200, 200]⟩
abbrev S50000x100 : Shape := ⟨2, ![50000, 100]⟩
abbrev S100x1 : Shape := ⟨2, ![100, 1]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S100x1 : S_.BroadcastsInDim S100x1 (![] : Fin 0 → Fin S100x1.rank)
  reducesTo_S100x1_S_d0_1 : S100x1.ReducesTo [0, 1] S_

variable [Facts]

def fn_part1 {F : FTy → Type} [FloatOps F] (main_arg7 : FVec F S100x1 .f32) (main_v13 : IVec S_ 1) (main_v16 : IVec S100x1 1) : IVec S_ 1 :=
  let main_c_5 : IVec S_ 1 := constantI S_ 1 1#1
  let main_v17 : IVec S_ 1 := (fun x v => Host.reduce IntOp.andi x v reducesTo_S100x1_S_d0_1 h_S_) main_v16 main_c_5
  let main_v18 : IVec S_ 1 := andi main_v13 main_v17
  let main_v19 : FVec F S100x1 .f32 := Host.absf main_arg7
  let main_cst_6 : FVec F S_ .f32 := constant S_ .f32 0x7F800000#32
  let main_v20 : FVec F S100x1 .f32 := broadcastInDim S100x1 ![] bcast_S_S100x1 main_cst_6
  let main_v21 : IVec S100x1 1 := cmpf .olt main_v19 main_v20
  let main_c_7 : IVec S_ 1 := constantI S_ 1 1#1
  let main_v22 : IVec S_ 1 := (fun x v => Host.reduce IntOp.andi x v reducesTo_S100x1_S_d0_1 h_S_) main_v21 main_c_7
  let main_v23 : IVec S_ 1 := andi main_v18 main_v22
  main_v23

def fn {F : FTy → Type} [FloatOps F] (main_arg0 : IVec S32x200 32) (main_arg1 : IVec S32x200x200 32) (main_arg2 : IVec S32x200 32) (main_arg3 : FVec F S50000x100 .f32) (main_arg4 : FVec F S100x1 .f32) (main_arg5 : FVec F S100x1 .f32) (main_arg6 : FVec F S100x1 .f32) (main_arg7 : FVec F S100x1 .f32) : IVec S_ 1 :=
  let main_v0 : FVec F S50000x100 .f32 := Host.absf main_arg3
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S100x1 .f32 := Host.absf main_arg4
  let main_cst_0 : FVec F S_ .f32 := constant S_ .f32 0x7F800000#32
  let main_v5 : FVec F S100x1 .f32 := broadcastInDim S100x1 ![] bcast_S_S100x1 main_cst_0
  let main_v6 : IVec S100x1 1 := cmpf .olt main_v4 main_v5
  let main_c_1 : IVec S_ 1 := constantI S_ 1 1#1
  let main_v7 : IVec S_ 1 := (fun x v => Host.reduce IntOp.andi x v reducesTo_S100x1_S_d0_1 h_S_) main_v6 main_c_1
  let main_v8 : IVec S_ 1 := andi main_v3 main_v7
  let main_v9 : FVec F S100x1 .f32 := Host.absf main_arg5
  let main_cst_2 : FVec F S_ .f32 := constant S_ .f32 0x7F800000#32
  let main_v10 : FVec F S100x1 .f32 := broadcastInDim S100x1 ![] bcast_S_S100x1 main_cst_2
  let main_v11 : IVec S100x1 1 := cmpf .olt main_v9 main_v10
  let main_c_3 : IVec S_ 1 := constantI S_ 1 1#1
  let main_v12 : IVec S_ 1 := (fun x v => Host.reduce IntOp.andi x v reducesTo_S100x1_S_d0_1 h_S_) main_v11 main_c_3
  let main_v13 : IVec S_ 1 := andi main_v8 main_v12
  let main_v14 : FVec F S100x1 .f32 := Host.absf main_arg6
  let main_cst_4 : FVec F S_ .f32 := constant S_ .f32 0x7F800000#32
  let main_v15 : FVec F S100x1 .f32 := broadcastInDim S100x1 ![] bcast_S_S100x1 main_cst_4
  let main_v16 : IVec S100x1 1 := cmpf .olt main_v14 main_v15
  fn_part1 (F := F) main_arg7 main_v13 main_v16
-- ==== Kernel.lean ====
abbrev S32x200 : Shape := ⟨2, ![32, 200]⟩
abbrev S32x200x200 : Shape := ⟨3, ![32, 200, 200]⟩
abbrev S50000x100 : Shape := ⟨2, ![50000, 100]⟩
abbrev S100x1 : Shape := ⟨2, ![100, 1]⟩
abbrev S_ : Shape := ⟨0, ![]⟩
abbrev S32x200x1 : Shape := ⟨3, ![32, 200, 1]⟩
abbrev S32x200x100 : Shape := ⟨3, ![32, 200, 100]⟩
abbrev S100 : Shape := ⟨1, ![100]⟩
abbrev S1x100 : Shape := ⟨2, ![1, 100]⟩
abbrev S4x100 : Shape := ⟨2, ![4, 100]⟩
abbrev S4x200x100 : Shape := ⟨3, ![4, 200, 100]⟩
abbrev S4x200x200 : Shape := ⟨3, ![4, 200, 200]⟩
abbrev S1x1x100 : Shape := ⟨3, ![1, 1, 100]⟩
abbrev S4x200 : Shape := ⟨2, ![4, 200]⟩
abbrev S4x200x1 : Shape := ⟨3, ![4, 200, 1]⟩

abbrev nBuf : Space → Nat
  | .hbm => 27
  | .vmem => 7
  | .smem => 0
  | _ => 0

abbrev bufTy : (tb : Table) → Fin (tcTables nBuf tb) → BufTy
  | .hbm, ⟨0, _⟩ => ⟨S32x200, .i32⟩
  | .hbm, ⟨1, _⟩ => ⟨S32x200x200, .i32⟩
  | .hbm, ⟨2, _⟩ => ⟨S32x200, .i32⟩
  | .hbm, ⟨3, _⟩ => ⟨S50000x100, .f32⟩
  | .hbm, ⟨4, _⟩ => ⟨S100x1, .f32⟩
  | .hbm, ⟨5, _⟩ => ⟨S100x1, .f32⟩
  | .hbm, ⟨6, _⟩ => ⟨S100x1, .f32⟩
  | .hbm, ⟨7, _⟩ => ⟨S100x1, .f32⟩
  | .hbm, ⟨8, _⟩ => ⟨S_, .i32⟩
  | .hbm, ⟨9, _⟩ => ⟨S32x200, .i32⟩
  | .hbm, ⟨10, _⟩ => ⟨S32x200, .i1⟩
  | .hbm, ⟨11, _⟩ => ⟨S_, .i32⟩
  | .hbm, ⟨12, _⟩ => ⟨S32x200, .i32⟩
  | .hbm, ⟨13, _⟩ => ⟨S32x200, .i32⟩
  | .hbm, ⟨14, _⟩ => ⟨S32x200, .i32⟩
  | .hbm, ⟨15, _⟩ => ⟨S32x200x1, .i32⟩
  | .hbm, ⟨16, _⟩ => ⟨S32x200x100, .f32⟩
  | .hbm, ⟨17, _⟩ => ⟨S100, .f32⟩
  | .hbm, ⟨18, _⟩ => ⟨S100, .f32⟩
  | .hbm, ⟨19, _⟩ => ⟨S100, .f32⟩
  | .hbm, ⟨20, _⟩ => ⟨S100, .f32⟩
  | .hbm, ⟨21, _⟩ => ⟨S1x100, .f32⟩
  | .hbm, ⟨22, _⟩ => ⟨S1x100, .f32⟩
  | .hbm, ⟨23, _⟩ => ⟨S1x100, .f32⟩
  | .hbm, ⟨24, _⟩ => ⟨S1x100, .f32⟩
  | .hbm, ⟨25, _⟩ => ⟨S4x100, .f32⟩
  | .hbm, ⟨26, _⟩ => ⟨S32x200x100, .f32⟩
  | .local _ .vmem, ⟨0, _⟩ => ⟨S4x200x100, .f32⟩
  | .local _ .vmem, ⟨1, _⟩ => ⟨S4x200x100, .f32⟩
  | .local _ .vmem, ⟨2, _⟩ => ⟨S4x200x200, .i32⟩
  | .local _ .vmem, ⟨3, _⟩ => ⟨S4x200x200, .i32⟩
  | .local _ .vmem, ⟨4, _⟩ => ⟨S4x100, .f32⟩
  | .local _ .vmem, ⟨5, _⟩ => ⟨S4x200x100, .f32⟩
  | .local _ .vmem, ⟨6, _⟩ => ⟨S4x200x100, .f32⟩
  | _, _ => ⟨S32x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x200x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x200x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x200x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32x200 : S_.BroadcastsInDim S32x200 (![] : Fin 0 → Fin S32x200.rank)
  bcast_S32x200_S32x200x1_0_1 : S32x200.BroadcastsInDim S32x200x1 (![0, 1] : Fin 2 → Fin S32x200x1.rank)
  shapeCasts_S100x1_S100 : S100x1.ShapeCasts S100
  bcast_S100_S1x100_1 : S100.BroadcastsInDim S1x100 (![1] : Fin 1 → Fin S1x100.rank)
  concatenates_S1x100_S1x100_S1x100_S1x100_S4x100_d0 : Shape.Concatenates [S1x100, S1x100, S1x100, S1x100] S4x100 0
  inb_S4x200x100_S4x200x100_0_0_0 : ∀ a, (![0, 0, 0] : Fin 3 → Nat) a + S4x200x100.size a ≤ S4x200x100.size a
  h_S4x200x100 : 0 < S4x200x100.numel
  shapeCasts_S4x200x100_S4x200x100 : S4x200x100.ShapeCasts S4x200x100
  inb_S4x200x200_S4x200x200_0_0_0 : ∀ a, (![0, 0, 0] : Fin 3 → Nat) a + S4x200x200.size a ≤ S4x200x200.size a
  h_S4x200x200 : 0 < S4x200x200.numel
  bitsLt_bf16_f32 : FTy.bits .bf16 < FTy.bits .f32
  inb_S4x100_S1x100_0_0 : ∀ a, (![0, 0] : Fin 2 → Nat) a + S1x100.size a ≤ S4x100.size a
  h_S1x100 : 0 < S1x100.numel
  shapeCasts_S1x100_S100 : S1x100.ShapeCasts S100
  shapeCasts_S100_S1x1x100 : S100.ShapeCasts S1x1x100
  broadcasts_S1x1x100_S4x200x100 : S1x1x100.Broadcasts S4x200x100
  inb_S4x100_S1x100_1_0 : ∀ a, (![1, 0] : Fin 2 → Nat) a + S1x100.size a ≤ S4x100.size a
  inb_S4x100_S1x100_2_0 : ∀ a, (![2, 0] : Fin 2 → Nat) a + S1x100.size a ≤ S4x100.size a
  inb_S4x100_S1x100_3_0 : ∀ a, (![3, 0] : Fin 2 → Nat) a + S1x100.size a ≤ S4x100.size a
  reduces_S4x200x200_S4x200 : S4x200x200.Reduces [2] S4x200
  shapeCasts_S4x200_S4x200x1 : S4x200.ShapeCasts S4x200x1
  broadcasts_S4x200x1_S4x200x200 : S4x200x1.Broadcasts S4x200x200
  gather_S50000x100_S32x200x1_S32x200x100_2_0_n_n_0_2_1100_wf : GatherDims.WF S50000x100 S32x200x1 S32x200x100 [2] [0] [] [0] [] 2 ![1, 100]
  dot_S4x200x100_S4x200x100_S4x200x200_2_2_1_1_0_0_wf : DotDims.WF S4x200x100 S4x200x100 S4x200x200 [2] [2] [1] [1] [0] [0]
  dot_S4x200x200_S4x200x100_S4x200x100_2_1_1_2_0_0_wf : DotDims.WF S4x200x200 S4x200x100 S4x200x100 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x200x100.size a ≤ S32x200x100.size a
  hwx0_0 : ∀ i : grid0.Coords, EltTy.bits .f32 = 32 ∨ (Rect.block (s := S32x200x100) S4x200x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x200x200.size a ≤ S32x200x200.size a
  hwx0_1 : ∀ i : grid0.Coords, EltTy.bits .i32 = 32 ∨ (Rect.block (s := S32x200x200) S4x200x200.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x100.size a ≤ S4x100.size a
  hwx0_2 : ∀ i : grid0.Coords, EltTy.bits .f32 = 32 ∨ (Rect.block (s := S4x100) S4x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x200x100.size a ≤ S32x200x100.size a
  hwx0_3 : ∀ i : grid0.Coords, EltTy.bits .f32 = 32 ∨ (Rect.block (s := S32x200x100) S4x200x100.size (cc0_transform_3 i) (hinb0_3 i)).WholeWords (EltTy.packing .f32)

variable [Facts₀]

def gather_S50000x100_S32x200x1_S32x200x100_2_0_n_n_0_2_1100 : GatherDims S50000x100 S32x200x1 S32x200x100 where
  offsetDims := [2]
  collapsedSliceDims := [0]
  operandBatchingDims := []
  startIndicesBatchingDims := []
  startIndexMap := [0]
  indexVectorDim := 2
  sliceSizes := ![1, 100]
  wf := gather_S50000x100_S32x200x1_S32x200x100_2_0_n_n_0_2_1100_wf
def dot_S4x200x100_S4x200x100_S4x200x200_2_2_1_1_0_0 : DotDims S4x200x100 S4x200x100 S4x200x200 where
  lhsContracting := [2]
  rhsContracting := [2]
  lhsNonContracting := [1]
  rhsNonContracting := [1]
  lhsBatch := [0]
  rhsBatch := [0]
  wf := dot_S4x200x100_S4x200x100_S4x200x200_2_2_1_1_0_0_wf
def dot_S4x200x200_S4x200x100_S4x200x100_2_1_1_2_0_0 : DotDims S4x200x200 S4x200x100 S4x200x100 where
  lhsContracting := [2]
  rhsContracting := [1]
  lhsNonContracting := [1]
  rhsNonContracting := [2]
  lhsBatch := [0]
  rhsBatch := [0]
  wf := dot_S4x200x200_S4x200x100_S4x200x100_2_1_1_2_0_0_wf

abbrev win0_0 : Pipeline.Window sig grid0 :=
  Pipeline.Window.ofSpec (Memref.whole main_v6) S4x200x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x200x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4x200x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x200 : Shape := ⟨2, ![32, 200]⟩
abbrev S32x200x200 : Shape := ⟨3, ![32, 200, 200]⟩
abbrev S50000x100 : Shape := ⟨2, ![50000, 100]⟩
abbrev S100x1 : Shape := ⟨2, ![100, 1]⟩
abbrev S_ : Shape := ⟨0, ![]⟩
abbrev S32x200x1 : Shape := ⟨3, ![32, 200, 1]⟩
abbrev S32x200x100 : Shape := ⟨3, ![32, 200, 100]⟩
abbrev S100 : Shape := ⟨1, ![100]⟩
abbrev S1x1x100 : Shape := ⟨3, ![1, 1, 100]⟩

abbrev nBuf : Space → Nat
  | .hbm => 102
  | .vmem => 0
  | .smem => 0
  | _ => 0

abbrev bufTy : (tb : Table) → Fin (tcTables nBuf tb) → BufTy
  | .hbm, ⟨0, _⟩ => ⟨S32x200, .i32⟩
  | .hbm, ⟨1, _⟩ => ⟨S32x200x200, .i32⟩
  | .hbm, ⟨2, _⟩ => ⟨S32x200, .i32⟩
  | .hbm, ⟨3, _⟩ => ⟨S50000x100, .f32⟩
  | .hbm, ⟨4, _⟩ => ⟨S100x1, .f32⟩
  | .hbm, ⟨5, _⟩ => ⟨S100x1, .f32⟩
  | .hbm, ⟨6, _⟩ => ⟨S100x1, .f32⟩
  | .hbm, ⟨7, _⟩ => ⟨S100x1, .f32⟩
  | .hbm, ⟨8, _⟩ => ⟨S_, .f32⟩
  | .hbm, ⟨9, _⟩ => ⟨S_, .i32⟩
  | .hbm, ⟨10, _⟩ => ⟨S32x200, .i32⟩
  | .hbm, ⟨11, _⟩ => ⟨S32x200, .i1⟩
  | .hbm, ⟨12, _⟩ => ⟨S_, .i32⟩
  | .hbm, ⟨13, _⟩ => ⟨S32x200, .i32⟩
  | .hbm, ⟨14, _⟩ => ⟨S32x200, .i32⟩
  | .hbm, ⟨15, _⟩ => ⟨S32x200, .i32⟩
  | .hbm, ⟨16, _⟩ => ⟨S32x200x1, .i32⟩
  | .hbm, ⟨17, _⟩ => ⟨S32x200x100, .f32⟩
  | .hbm, ⟨18, _⟩ => ⟨S100, .f32⟩
  | .hbm, ⟨19, _⟩ => ⟨S1x1x100, .f32⟩
  | .hbm, ⟨20, _⟩ => ⟨S32x200x100, .f32⟩
  | .hbm, ⟨21, _⟩ => ⟨S32x200x100, .f32⟩
  | .hbm, ⟨22, _⟩ => ⟨S32x200x200, .f32⟩
  | .hbm, ⟨23, _⟩ => ⟨S_, .f32⟩
  | .hbm, ⟨24, _⟩ => ⟨S_, .f32⟩
  | .hbm, ⟨25, _⟩ => ⟨S32x200x200, .f32⟩
  | .hbm, ⟨26, _⟩ => ⟨S32x200x200, .i1⟩
  | .hbm, ⟨27, _⟩ => ⟨S_, .f32⟩
  | .hbm, ⟨28, _⟩ => ⟨S32x200x200, .f32⟩
  | .hbm, ⟨29, _⟩ => ⟨S32x200x200, .f32⟩
  | .hbm, ⟨30, _⟩ => ⟨S32x200x200, .f32⟩
  | .hbm, ⟨31, _⟩ => ⟨S100, .f32⟩
  | .hbm, ⟨32, _⟩ => ⟨S1x1x100, .f32⟩
  | .hbm, ⟨33, _⟩ => ⟨S32x200x100, .f32⟩
  | .hbm, ⟨34, _⟩ => ⟨S32x200x100, .f32⟩
  | .hbm, ⟨35, _⟩ => ⟨S32x200x200, .f32⟩
  | .hbm, ⟨36, _⟩ => ⟨S_, .f32⟩
  | .hbm, ⟨37, _⟩ => ⟨S_, .f32⟩
  | .hbm, ⟨38, _⟩ => ⟨S32x200x200, .f32⟩
  | .hbm, ⟨39, _⟩ => ⟨S32x200x200, .i1⟩
  | .hbm, ⟨40, _⟩ => ⟨S_, .f32⟩
  | .hbm, ⟨41, _⟩ => ⟨S32x200x200, .f32⟩
  | .hbm, ⟨42, _⟩ => ⟨S32x200x200, .f32⟩
  | .hbm, ⟨43, _⟩ => ⟨S32x200x200, .f32⟩
  | .hbm, ⟨44, _⟩ => ⟨S100, .f32⟩
  | .hbm, ⟨45, _⟩ => ⟨S1x1x100, .f32⟩
  | .hbm, ⟨46, _⟩ => ⟨S32x200x100, .f32⟩
  | .hbm, ⟨47, _⟩ => ⟨S32x200x100, .f32⟩
  | .hbm, ⟨48, _⟩ => ⟨S32x200x200, .f32⟩
  | .hbm, ⟨49, _⟩ => ⟨S_, .f32⟩
  | .hbm, ⟨50, _⟩ => ⟨S_, .f32⟩
  | .hbm, ⟨51, _⟩ => ⟨S32x200x200, .f32⟩
  | .hbm, ⟨52, _⟩ => ⟨S32x200x200, .i1⟩
  | .hbm, ⟨53, _⟩ => ⟨S_, .f32⟩
  | .hbm, ⟨54, _⟩ => ⟨S32x200x200, .f32⟩
  | .hbm, ⟨55, _⟩ => ⟨S32x200x200, .f32⟩
  | .hbm, ⟨56, _⟩ => ⟨S32x200x200, .f32⟩
  | .hbm, ⟨57, _⟩ => ⟨S100, .f32⟩
  | .hbm, ⟨58, _⟩ => ⟨S1x1x100, .f32⟩
  | .hbm, ⟨59, _⟩ => ⟨S32x200x100, .f32⟩
  | .hbm, ⟨60, _⟩ => ⟨S32x200x100, .f32⟩
  | .hbm, ⟨61, _⟩ => ⟨S32x200x200, .f32⟩
  | .hbm, ⟨62, _⟩ => ⟨S_, .f32⟩
  | .hbm, ⟨63, _⟩ => ⟨S_, .f32⟩
  | .hbm, ⟨64, _⟩ => ⟨S32x200x200, .f32⟩
  | .hbm, ⟨65, _⟩ => ⟨S32x200x200, .i1⟩
  | .hbm, ⟨66, _⟩ => ⟨S_, .f32⟩
  | .hbm, ⟨67, _⟩ => ⟨S32x200x200, .f32⟩
  | .hbm, ⟨68, _⟩ => ⟨S32x200x200, .f32⟩
  | .hbm, ⟨69, _⟩ => ⟨S32x200x200, .f32⟩
  | .hbm, ⟨70, _⟩ => ⟨S_, .i32⟩
  | .hbm, ⟨71, _⟩ => ⟨S32x200x200, .i32⟩
  | .hbm, ⟨72, _⟩ => ⟨S32x200x200, .i1⟩
  | .hbm, ⟨73, _⟩ => ⟨S32x200x200, .f32⟩
  | .hbm, ⟨74, _⟩ => ⟨S32x200x200, .f32⟩
  | .hbm, ⟨75, _⟩ => ⟨S_, .i32⟩
  | .hbm, ⟨76, _⟩ => ⟨S32x200x200, .i32⟩
  | .hbm, ⟨77, _⟩ => ⟨S32x200x200, .i1⟩
  | .hbm, ⟨78, _⟩ => ⟨S32x200x200, .f32⟩
  | .hbm, ⟨79, _⟩ => ⟨S_, .i32⟩
  | .hbm, ⟨80, _⟩ => ⟨S32x200x200, .i32⟩
  | .hbm, ⟨81, _⟩ => ⟨S32x200x200, .i1⟩
  | .hbm, ⟨82, _⟩ => ⟨S32x200x200, .f32⟩
  | .hbm, ⟨83, _⟩ => ⟨S_, .i32⟩
  | .hbm, ⟨84, _⟩ => ⟨S32x200x200, .i32⟩
  | .hbm, ⟨85, _⟩ => ⟨S32x200x200, .i1⟩
  | .hbm, ⟨86, _⟩ => ⟨S32x200x200, .f32⟩
  | .hbm, ⟨87, _⟩ => ⟨S_, .f32⟩
  | .hbm, ⟨88, _⟩ => ⟨S32x200, .f32⟩
  | .hbm, ⟨89, _⟩ => ⟨S_, .f32⟩
  | .hbm, ⟨90, _⟩ => ⟨S32x200, .f32⟩
  | .hbm, ⟨91, _⟩ => ⟨S32x200, .f32⟩
  | .hbm, ⟨92, _⟩ => ⟨S32x200x1, .f32⟩
  | .hbm, ⟨93, _⟩ => ⟨S32x200x200, .f32⟩
  | .hbm, ⟨94, _⟩ => ⟨S32x200x200, .f32⟩
  | .hbm, ⟨95, _⟩ => ⟨S32x200x200, .f32⟩
  | .hbm, ⟨96, _⟩ => ⟨S_, .f32⟩
  | .hbm, ⟨97, _⟩ => ⟨S32x200, .f32⟩
  | .hbm, ⟨98, _⟩ => ⟨S32x200x1, .f32⟩
  | .hbm, ⟨99, _⟩ => ⟨S32x200x200, .f32⟩
  | .hbm, ⟨100, _⟩ => ⟨S32x200x200, .f32⟩
  | .hbm, ⟨101, _⟩ => ⟨S32x200x100, .f32⟩
  | _, _ => ⟨S32x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_4 : Ref sig .tc := ⟨.hbm, 62, rfl⟩
abbrev main_call3_cst : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v30 : Ref sig .tc := ⟨.hbm, 69, rfl⟩
abbrev main_c_5 : Ref sig .tc := ⟨.hbm, 70, rfl⟩
abbrev main_v31 : Ref sig .tc := ⟨.hbm, 71, rfl⟩
abbrev main_v32 : Ref sig .tc := ⟨.hbm, 72, rfl⟩
abbrev main_call4_v0 : Ref sig .tc := ⟨.hbm, 73, rfl⟩
abbrev main_v33 : Ref sig .tc := ⟨.hbm, 74, rfl⟩
abbrev main_c_6 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_7 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_c_8 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_9 : Ref sig .tc := ⟨.hbm, 87, rfl⟩
abbrev main_v43 : Ref sig .tc := ⟨.hbm, 88, rfl⟩
abbrev main_cst_10 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_11 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩

abbrev nD : Nat := 1
abbrev τ : Topo := Topo.v7x

variable {F : FTy → Type} [FloatOps F]

class Facts₀ : Prop where
  bcast_S_S32x200 : S_.BroadcastsInDim S32x200 (![] : Fin 0 → Fin S32x200.rank)
  bcast_S32x200_S32x200x1_0_1 : S32x200.BroadcastsInDim S32x200x1 (![0, 1] : Fin 2 → Fin S32x200x1.rank)
  shapeCasts_S100x1_S100 : S100x1.ShapeCasts S100
  bcast_S100_S1x1x100_2 : S100.BroadcastsInDim S1x1x100 (![2] : Fin 1 → Fin S1x1x100.rank)
  bcast_S1x1x100_S32x200x100_0_1_2 : S1x1x100.BroadcastsInDim S32x200x100 (![0, 1, 2] : Fin 3 → Fin S32x200x100.rank)
  bcast_S_S32x200x200 : S_.BroadcastsInDim S32x200x200 (![] : Fin 0 → Fin S32x200x200.rank)
  reducesTo_S32x200x200_S32x200_d2 : S32x200x200.ReducesTo [2] S32x200
  h_S_ : 0 < S_.numel
  bcast_S32x200x1_S32x200x200_0_1_2 : S32x200x1.BroadcastsInDim S32x200x200 (![0, 1, 2] : Fin 3 → Fin S32x200x200.rank)
  gather_S50000x100_S32x200x1_S32x200x100_2_0_n_n_0_2_1100_wf : GatherDims.WF S50000x100 S32x200x1 S32x200x100 [2] [0] [] [0] [] 2 ![1, 100]
  dot_S32x200x100_S32x200x100_S32x200x200_2_2_1_1_0_0_wf : DotDims.WF S32x200x100 S32x200x100 S32x200x200 [2] [2] [1] [1] [0] [0]
  dot_S32x200x200_S32x200x100_S32x200x100_2_1_1_2_0_0_wf : DotDims.WF S32x200x200 S32x200x100 S32x200x100 [2] [1] [1] [2] [0] [0]

variable [Facts₀]

def gather_S50000x100_S32x200x1_S32x200x100_2_0_n_n_0_2_1100 : GatherDims S50000x100 S32x200x1 S32x200x100 where
  offsetDims := [2]
  collapsedSliceDims := [0]
  operandBatchingDims := []
  startIndicesBatchingDims := []
  startIndexMap := [0]
  indexVectorDim := 2
  sliceSizes := ![1, 100]
  wf := gather_S50000x100_S32x200x1_S32x200x100_2_0_n_n_0_2_1100_wf
def dot_S32x200x100_S32x200x100_S32x200x200_2_2_1_1_0_0 : DotDims S32x200x100 S32x200x100 S32x200x200 where
  lhsContracting := [2]
  rhsContracting := [2]
  lhsNonContracting := [1]
  rhsNonContracting := [1]
  lhsBatch := [0]
  rhsBatch := [0]
  wf := dot_S32x200x100_S32x200x100_S32x200x200_2_2_1_1_0_0_wf
def dot_S32x200x200_S32x200x100_S32x200x100_2_1_1_2_0_0 : DotDims S32x200x200 S32x200x100 S32x200x100 where
  lhsContracting := [2]
  rhsContracting := [1]
  lhsNonContracting := [1]
  rhsNonContracting := [2]
  lhsBatch := [0]
  rhsBatch := [0]
  wf := dot_S32x200x200_S32x200x100_S32x200x100_2_1_1_2_0_0_wf

class Facts : Prop extends Facts₀ where

variable [Facts]
-- ==== Proof.FrameKernel.lean ====
/-
  The frame of the program's one launch, stated once for any float instance.

  @main computes, on the host, the gathered embedding rows (an index normalisation and a gather), the four relation
  vectors laid as the rows of one [4, 100] array, and then launches the kernel over a grid of 8 points.  Point t
  stages block t (4 batch elements) of the gathered rows and of the relation codes, the whole [4, 100] array, and an
  output block; the body loads the three inputs whole, computes, and overwrites the whole output block with one store.
  So after the body each input's buffer still holds its block, and the output's holds the body's stored value of the
  three input blocks: that is the proof data.  The library's launch theorem then gives the run: every weakly fair
  execution terminates, the output array is what the blocks' write-backs leave, and every other array is as the
  region found it — in particular the eight argument arrays, which no host operation and no write-back touches.
-/
import proofs.«103132_j84241488544091_2_alg».proof.Proof.Gen.Kernel.Launch
import proofs.«103132_j84241488544091_2_alg».proof.Proof.Gen.Kernel.Skeleton
import proofs.«103132_j84241488544091_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is reached: the launch memory after the 18 host operations, kept as their fold. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not fetched
    its block index has not moved), for any proof data over the launch's arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not fetched
    its block index has not moved), for any proof data over the launch's arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not fetched
    its block index has not moved), for any proof data over the launch's arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- From a run to the launch theorem's post, for any proof data over the launch's arrays, to the frame claim's post:
    the relation codes' array is a staged input, unchanged; the other seven arguments are staged by no window, so they
    are as the launch found them; and the launch found every argument as @main was given it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses -/

/-- The whole block of gathered rows, of relation codes, and of the output; row k of the relation vectors' array. -/
abbrev rRows : Rect S4x200x100 := Rect.unit (s := S4x200x100) ![0, 0, 0] S4x200x100.size inb_S4x200x100_S4x200x100_0_0_0
abbrev rCodes : Rect S4x200x200 := Rect.unit (s := S4x200x200) ![0, 0, 0] S4x200x200.size inb_S4x200x200_S4x200x200_0_0_0
abbrev rVec0 : Rect S4x100 := Rect.unit (s := S4x100) ![0, 0] S1x100.size inb_S4x100_S1x100_0_0
abbrev rVec1 : Rect S4x100 := Rect.unit (s := S4x100) ![1, 0] S1x100.size inb_S4x100_S1x100_1_0
abbrev rVec2 : Rect S4x100 := Rect.unit (s := S4x100) ![2, 0] S1x100.size inb_S4x100_S1x100_2_0
abbrev rVec3 : Rect S4x100 := Rect.unit (s := S4x100) ![3, 0] S1x100.size inb_S4x100_S1x100_3_0

/-! ## What the body leaves in the output window's buffer -/

/-- The body's one stored value, as a function of the three input blocks: the skeleton's payloads applied to the loads. -/
def stored (x0 : Vec F S4x200x100 .f32) (x1 : Vec F S4x200x200 .i32) (x2 : Vec F S4x100 .f32) : Vec F S4x200x100 .f32 :=
  k0_pay5 (k0_pay1 (View.ld x0 rRows)) (View.ld x1 rCodes) (k0_pay2 (View.ld x0 rRows))
    (k0_pay3 (View.ld x0 rRows) (View.ld x1 rCodes) (View.ld x2 rVec0) (View.ld x2 rVec1)) (k0_pay4 (View.ld x2 rVec2)) (View.ld x2 rVec3)

/-- The output window's staging buffer after the body: its one store, of the whole block. -/
def out0_3 (x0 : Vec F S4x200x100 .f32) (x1 : Vec F S4x200x200 .i32) (x2 : Vec F S4x100 .f32) : Vec F S4x200x100 .f32 :=
  View.canon [⟨rRows, stored x0 x1 x2⟩]

/-- That store covers the buffer. -/
theorem cover0_3 (p0 : Vec F S4x200x100 .f32) (y : S4x200x100.Idx) :
    ∃ pc ∈ ([⟨rRows, p0⟩] : List (View.Piece (Elt F) S4x200x100 .f32)), y ∈ pc.1.set :=
  View.cover_of_tiled [⟨rRows, p0⟩] S4x200x100.size (by rfl) y

/-! ## The body's triple -/

set_option maxHeartbeats 4000000 in
/-- The kernel body on whole staging memrefs — the three inputs' at contents `x0`, `x1`, `x2`, the output's at anything —
    runs to the continuation holding the inputs' as they were and the output's at `out0_3` of the inputs'. -/
theorem sound_kernel (c : Dev nD) (E : Set ℕ) (i : grid0.Coords)
    (arg1 : Memref sig .tc .vmem S4x200x100 .f32) (harg1 : arg1.IsWhole) (arg2 : Memref sig .tc .vmem S4x200x200 .i32) (harg2 : arg2.IsWhole)
    (arg3 : Memref sig .tc .vmem S4x100 .f32) (harg3 : arg3.IsWhole) (arg4 : Memref sig .tc .vmem S4x200x100 .f32) (harg4 : arg4.IsWhole)
    (x0 : Vec F S4x200x100 .f32) (x1 : Vec F S4x200x200 .i32) (x2 : Vec F S4x100 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gat_kernel i arg1 harg1 arg2 harg2 arg3 harg3 arg4 harg4) K := by
  simp only [cc0__gat_kernel_eq_skeleton]; unfold cc0__gat_kernel_skel
  simp only [k0_part2_eq_skeleton]; unfold k0_part2_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The proof data of the launch on core `c`: the arrays as the launch finds them; after the body at point `t` each input's
    buffer at its block and the output's at `out0_3` of the three input blocks; the invariant the untouched rest; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the launch's. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at any point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each array
    of the launch holds what the library computes from the proof data and every other buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its eight argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Fr

end
-- ==== Proof.FrameKernelIdeal.lean ====
/-
  The frame of the program's one launch, stated once for any float instance.

  @main computes, on the host, the gathered embedding rows (an index normalisation and a gather), the four relation
  vectors laid as the rows of one [4, 100] array, and then launches the kernel over a grid of 8 points.  Point t
  stages block t (4 batch elements) of the gathered rows and of the relation codes, the whole [4, 100] array, and an
  output block; the body loads the three inputs whole, computes, and overwrites the whole output block with one store.
  So after the body each input's buffer still holds its block, and the output's holds the body's stored value of the
  three input blocks: that is the proof data.  The library's launch theorem then gives the run: every weakly fair
  execution terminates, the output array is what the blocks' write-backs leave, and every other array is as the
  region found it — in particular the eight argument arrays, which no host operation and no write-back touches.
-/
import proofs.«103132_j84241488544091_2_alg».proof.Proof.Gen.KernelIdeal.Launch
import proofs.«103132_j84241488544091_2_alg».proof.Proof.Gen.KernelIdeal.Skeleton
import proofs.«103132_j84241488544091_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is reached: the launch memory after the 18 host operations, kept as their fold. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not fetched
    its block index has not moved), for any proof data over the launch's arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not fetched
    its block index has not moved), for any proof data over the launch's arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not fetched
    its block index has not moved), for any proof data over the launch's arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- From a run to the launch theorem's post, for any proof data over the launch's arrays, to the frame claim's post:
    the relation codes' array is a staged input, unchanged; the other seven arguments are staged by no window, so they
    are as the launch found them; and the launch found every argument as @main was given it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses -/

/-- The whole block of gathered rows, of relation codes, and of the output; row k of the relation vectors' array. -/
abbrev rRows : Rect S4x200x100 := Rect.unit (s := S4x200x100) ![0, 0, 0] S4x200x100.size inb_S4x200x100_S4x200x100_0_0_0
abbrev rCodes : Rect S4x200x200 := Rect.unit (s := S4x200x200) ![0, 0, 0] S4x200x200.size inb_S4x200x200_S4x200x200_0_0_0
abbrev rVec0 : Rect S4x100 := Rect.unit (s := S4x100) ![0, 0] S1x100.size inb_S4x100_S1x100_0_0
abbrev rVec1 : Rect S4x100 := Rect.unit (s := S4x100) ![1, 0] S1x100.size inb_S4x100_S1x100_1_0
abbrev rVec2 : Rect S4x100 := Rect.unit (s := S4x100) ![2, 0] S1x100.size inb_S4x100_S1x100_2_0
abbrev rVec3 : Rect S4x100 := Rect.unit (s := S4x100) ![3, 0] S1x100.size inb_S4x100_S1x100_3_0

/-! ## What the body leaves in the output window's buffer -/

/-- The body's one stored value, as a function of the three input blocks: the skeleton's payloads applied to the loads. -/
def stored (x0 : Vec F S4x200x100 .f32) (x1 : Vec F S4x200x200 .i32) (x2 : Vec F S4x100 .f32) : Vec F S4x200x100 .f32 :=
  k0_pay5 (k0_pay1 (View.ld x0 rRows)) (View.ld x1 rCodes) (k0_pay2 (View.ld x0 rRows))
    (k0_pay3 (View.ld x0 rRows) (View.ld x1 rCodes) (View.ld x2 rVec0) (View.ld x2 rVec1)) (k0_pay4 (View.ld x2 rVec2)) (View.ld x2 rVec3)

/-- The output window's staging buffer after the body: its one store, of the whole block. -/
def out0_3 (x0 : Vec F S4x200x100 .f32) (x1 : Vec F S4x200x200 .i32) (x2 : Vec F S4x100 .f32) : Vec F S4x200x100 .f32 :=
  View.canon [⟨rRows, stored x0 x1 x2⟩]

/-- That store covers the buffer. -/
theorem cover0_3 (p0 : Vec F S4x200x100 .f32) (y : S4x200x100.Idx) :
    ∃ pc ∈ ([⟨rRows, p0⟩] : List (View.Piece (Elt F) S4x200x100 .f32)), y ∈ pc.1.set :=
  View.cover_of_tiled [⟨rRows, p0⟩] S4x200x100.size (by rfl) y

/-! ## The body's triple -/

set_option maxHeartbeats 4000000 in
/-- The kernel body on whole staging memrefs — the three inputs' at contents `x0`, `x1`, `x2`, the output's at anything —
    runs to the continuation holding the inputs' as they were and the output's at `out0_3` of the inputs'. -/
theorem sound_kernel (c : Dev nD) (E : Set ℕ) (i : grid0.Coords)
    (arg1 : Memref sig .tc .vmem S4x200x100 .f32) (harg1 : arg1.IsWhole) (arg2 : Memref sig .tc .vmem S4x200x200 .i32) (harg2 : arg2.IsWhole)
    (arg3 : Memref sig .tc .vmem S4x100 .f32) (harg3 : arg3.IsWhole) (arg4 : Memref sig .tc .vmem S4x200x100 .f32) (harg4 : arg4.IsWhole)
    (x0 : Vec F S4x200x100 .f32) (x1 : Vec F S4x200x200 .i32) (x2 : Vec F S4x100 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gat_kernel i arg1 harg1 arg2 harg2 arg3 harg3 arg4 harg4) K := by
  simp only [cc0__gat_kernel_eq_skeleton]; unfold cc0__gat_kernel_skel
  simp only [k0_part2_eq_skeleton]; unfold k0_part2_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The proof data of the launch on core `c`: the arrays as the launch finds them; after the body at point `t` each input's
    buffer at its block and the output's at `out0_3` of the three input blocks; the invariant the untouched rest; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the launch's. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at any point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each array
    of the launch holds what the library computes from the proof data and every other buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its eight argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Fr

end
-- ==== Proof.KernelBlocks.lean ====
/-
  What the launch finds, and what each block reads.

  When the launch is reached the first window's array holds the GATHERED ROWS — the embedding table indexed by the
  normalised item indices, a term both programs spell alike and nobody opens —, the second the relation codes (an
  argument, untouched), and the third the four relation vectors STACKED as the rows of a [4, 100] array: vector k,
  a [100, 1] column, is cast to a vector, laid as a one-row matrix, and the four rows are concatenated; so entry
  (k, d) of the stack is entry (d, 0) of vector k.  Grid point t's blocks of the first two arrays and of the output are
  batch elements 4t … 4t+3, all rows, all columns; its block of the stack is the whole stack.
-/
import proofs.«103132_j84241488544091_2_alg».proof.Proof.FrameKernelIdeal
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-! ## The host prefix's two results -/

/-- The gathered rows, as @main spells them: a negative index is moved up by the table's height, then the table is
    gathered row by row.  Never opened: the reference spells the same term. -/
def gathered (emb : S50000x100.Idx → EReal) (inputs : S32x200.Idx → BitVec 32) : S32x200x100.Idx → EReal :=
  Host.gather gather_S50000x100_S32x200x1_S32x200x100_2_0_n_n_0_2_1100 emb
    (broadcastInDim S32x200x1 ![0, 1] bcast_S32x200_S32x200x1_0_1
      (select (cmpi .slt inputs (broadcastInDim S32x200 ![] bcast_S_S32x200 (constantI S_ 32 0#32)))
        (addi inputs (broadcastInDim S32x200 ![] bcast_S_S32x200 (constantI S_ 32 50000#32))) inputs))

/-- A relation vector as the one row of a [1, 100] array. -/
def asRow (a : S100x1.Idx → EReal) : S1x100.Idx → EReal :=
  broadcastInDim S1x100 ![1] bcast_S100_S1x100_1 (shapeCast S100 a shapeCasts_S100x1_S100)

/-- The four relation vectors stacked as the rows of a [4, 100] array. -/
def stacked (a0 a1 a2 a3 : S100x1.Idx → EReal) : S4x100.Idx → EReal :=
  concatenate S4x100 0 [⟨S1x100, asRow a0⟩, ⟨S1x100, asRow a1⟩, ⟨S1x100, asRow a2⟩, ⟨S1x100, asRow a3⟩]
    concatenates_S1x100_S1x100_S1x100_S1x100_S4x100_d0

variable (m : (ℓ : Loc nD τ sig) → Buf (Elt Ideal) ℓ)

/-- The launch finds the first window's array at the gathered rows of the embedding table and the item indices. -/
theorem V_rows (c : Dev nD) : (V m c main_v6 : S32x200x100.Idx → EReal)
    = gathered (m ((c : Thread nD τ).loc main_arg3)) (m ((c : Thread nD τ).loc main_arg0)) := by
  dsimp only [V, hostOps0]; after_results; rfl

/-- The launch finds the third window's array at the stack of the four relation vectors. -/
theorem V_vecs (c : Dev nD) : (V m c main_v15 : S4x100.Idx → EReal)
    = stacked (m ((c : Thread nD τ).loc main_arg4)) (m ((c : Thread nD τ).loc main_arg5))
        (m ((c : Thread nD τ).loc main_arg6)) (m ((c : Thread nD τ).loc main_arg7)) := by
  dsimp only [V, hostOps0]; after_results
  dsimp only [Matrix.cons_val]
  repeat (first
    | rw [StableHlo.nullary_result] | rw [StableHlo.unary_result] | rw [StableHlo.binary_result] | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

/-! ## The stack read at an entry -/

/-- Entry (0, d) of a vector's row is entry (d, 0) of the vector. -/
theorem asRow_apply (a : S100x1.Idx → EReal) (d : Fin 100) : asRow a (ix2 (0 : Fin 1) d) = a (ix2 d (0 : Fin 1)) := by
  unfold asRow
  rw [broadcastInDim_apply ![1] bcast_S100_S1x100_1 _ (ix2 (0 : Fin 1) d) (ix1 d) (by intro b; match b with | ⟨0, _⟩ => rfl)]
  exact shapeCast_apply a shapeCasts_S100x1_S100 (ix1 d) (ix2 d (0 : Fin 1))
    (by rw [Shape.rowMajor_val_two, Shape.rowMajor_val_one]; show d.val * 1 + 0 = d.val; omega)

/-- Entry (0, d) of the stack is entry (d, 0) of vector 0. -/
theorem stacked_apply0 (a0 a1 a2 a3 : S100x1.Idx → EReal) (d : Fin 100) :
    stacked a0 a1 a2 a3 (ix2 (0 : Fin 4) d) = a0 (ix2 d (0 : Fin 1)) := by
  unfold stacked
  rw [concatenate_apply_piece (t := S4x100) (0 : Fin 2) [⟨S1x100, asRow a0⟩, ⟨S1x100, asRow a1⟩, ⟨S1x100, asRow a2⟩, ⟨S1x100, asRow a3⟩] concatenates_S1x100_S1x100_S1x100_S1x100_S4x100_d0 (ix2 (0 : Fin 4) d) 0 (by show 0 < 4; omega) S1x100 (asRow a0) rfl rfl 0 (by rfl)
    (ix2 (0 : Fin 1) d) (by intro b hb; match b, hb with | ⟨0, _⟩, hb => exact absurd rfl hb | ⟨1, _⟩, _ => rfl) (by rfl)]
  exact asRow_apply a0 d

/-- Entry (1, d) of the stack is entry (d, 0) of vector 1. -/
theorem stacked_apply1 (a0 a1 a2 a3 : S100x1.Idx → EReal) (d : Fin 100) :
    stacked a0 a1 a2 a3 (ix2 (1 : Fin 4) d) = a1 (ix2 d (0 : Fin 1)) := by
  unfold stacked
  rw [concatenate_apply_piece (t := S4x100) (0 : Fin 2) [⟨S1x100, asRow a0⟩, ⟨S1x100, asRow a1⟩, ⟨S1x100, asRow a2⟩, ⟨S1x100, asRow a3⟩] concatenates_S1x100_S1x100_S1x100_S1x100_S4x100_d0 (ix2 (1 : Fin 4) d) 1 (by show 1 < 4; omega) S1x100 (asRow a1) rfl rfl 1 (by rfl)
    (ix2 (0 : Fin 1) d) (by intro b hb; match b, hb with | ⟨0, _⟩, hb => exact absurd rfl hb | ⟨1, _⟩, _ => rfl) (by rfl)]
  exact asRow_apply a1 d

/-- Entry (2, d) of the stack is entry (d, 0) of vector 2. -/
theorem stacked_apply2 (a0 a1 a2 a3 : S100x1.Idx → EReal) (d : Fin 100) :
    stacked a0 a1 a2 a3 (ix2 (2 : Fin 4) d) = a2 (ix2 d (0 : Fin 1)) := by
  unfold stacked
  rw [concatenate_apply_piece (t := S4x100) (0 : Fin 2) [⟨S1x100, asRow a0⟩, ⟨S1x100, asRow a1⟩, ⟨S1x100, asRow a2⟩, ⟨S1x100, asRow a3⟩] concatenates_S1x100_S1x100_S1x100_S1x100_S4x100_d0 (ix2 (2 : Fin 4) d) 2 (by show 2 < 4; omega) S1x100 (asRow a2) rfl rfl 2 (by rfl)
    (ix2 (0 : Fin 1) d) (by intro b hb; match b, hb with | ⟨0, _⟩, hb => exact absurd rfl hb | ⟨1, _⟩, _ => rfl) (by rfl)]
  exact asRow_apply a2 d

/-- Entry (3, d) of the stack is entry (d, 0) of vector 3. -/
theorem stacked_apply3 (a0 a1 a2 a3 : S100x1.Idx → EReal) (d : Fin 100) :
    stacked a0 a1 a2 a3 (ix2 (3 : Fin 4) d) = a3 (ix2 d (0 : Fin 1)) := by
  unfold stacked
  rw [concatenate_apply_piece (t := S4x100) (0 : Fin 2) [⟨S1x100, asRow a0⟩, ⟨S1x100, asRow a1⟩, ⟨S1x100, asRow a2⟩, ⟨S1x100, asRow a3⟩] concatenates_S1x100_S1x100_S1x100_S1x100_S4x100_d0 (ix2 (3 : Fin 4) d) 3 (by show 3 < 4; omega) S1x100 (asRow a3) rfl rfl 3 (by rfl)
    (ix2 (0 : Fin 1) d) (by intro b hb; match b, hb with | ⟨0, _⟩, hb => exact absurd rfl hb | ⟨1, _⟩, _ => rfl) (by rfl)]
  exact asRow_apply a3 d

/-! ## The grid's blocks -/

theorem hz3 : (![0, 0, 0] : Fin 3 → Nat) = fun _ => 0 := funext fun a => by fin_cases a <;> rfl

/-- The printed index maps over the grid: the first, second and output windows move along the batch axis with the
    point; the stack's window stays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem lt8 (t : Fin cfg0.N) : t.val < 8 := lt_of_lt_of_eq t.isLt N_0

/-- Batch element `bl` of point `t`'s block is batch element 4t + bl of the array. -/
def batchOf (t : Fin cfg0.N) (bl : Fin 4) : Fin 32 := ⟨4 * t.val + bl.val, by have := lt8 t; have := bl.isLt; omega⟩

/-- Point t's block of the gathered rows, read at (bl, i, d), is the array at (4t + bl, i, d). -/
theorem rows_blk (c : Dev nD) (t : Fin cfg0.N) (bl : Fin 4) (i : Fin 200) (d : Fin 100) :
    iblk m c 0 t (ix3 bl i d) = V m c main_v6 (ix3 (batchOf t bl) i d) := by
  obtain ⟨e0, e1, e2, -⟩ := idx_facts t
  show V m c main_v6 (((cfg0.win 0).blk t).view.emb (ix3 bl i d)) = V m c main_v6 (ix3 (batchOf t bl) i d)
  refine congrArg (V m c main_v6) (funext fun a => Fin.ext ?_)
  match a with
  | ⟨0, _⟩ => show win0_0.index t (0 : Fin 3) * 4 + 1 * bl.val = 4 * t.val + bl.val; omega
  | ⟨1, _⟩ => show win0_0.index t (1 : Fin 3) * 200 + 1 * i.val = i.val; omega
  | ⟨2, _⟩ => show win0_0.index t (2 : Fin 3) * 100 + 1 * d.val = d.val; omega

/-- Point t's block of the relation codes, read at (bl, i, j), is the array at (4t + bl, i, j). -/
theorem codes_blk (c : Dev nD) (t : Fin cfg0.N) (bl : Fin 4) (i j : Fin 200) :
    iblk m c 1 t (ix3 bl i j) = V m c main_arg1 (ix3 (batchOf t bl) i j) := by
  obtain ⟨-, -, -, e0, e1, e2, -⟩ := idx_facts t
  show V m c main_arg1 (((cfg0.win 1).blk t).view.emb (ix3 bl i j)) = V m c main_arg1 (ix3 (batchOf t bl) i j)
  refine congrArg (V m c main_arg1) (funext fun a => Fin.ext ?_)
  match a with
  | ⟨0, _⟩ => show win0_1.index t (0 : Fin 3) * 4 + 1 * bl.val = 4 * t.val + bl.val; omega
  | ⟨1, _⟩ => show win0_1.index t (1 : Fin 3) * 200 + 1 * i.val = i.val; omega
  | ⟨2, _⟩ => show win0_1.index t (2 : Fin 3) * 200 + 1 * j.val = j.val; omega

/-- Every point's block of the stack is the whole stack. -/
theorem vecs_blk (c : Dev nD) (t : Fin cfg0.N) (k : Fin 4) (d : Fin 100) :
    iblk m c 2 t (ix2 k d) = V m c main_v15 (ix2 k d) := by
  obtain ⟨-, -, -, -, -, -, e0, e1, -⟩ := idx_facts t
  show V m c main_v15 (((cfg0.win 2).blk t).view.emb (ix2 k d)) = V m c main_v15 (ix2 k d)
  refine congrArg (V m c main_v15) (funext fun a => Fin.ext ?_)
  match a with
  | ⟨0, _⟩ => show win0_2.index t (0 : Fin 2) * 4 + 1 * k.val = k.val; omega
  | ⟨1, _⟩ => show win0_2.index t (1 : Fin 2) * 100 + 1 * d.val = d.val; omega

/-- The output block's entry (bl, i, d) at point t is the array's entry (4t + bl, i, d). -/
theorem out_emb (t : Fin cfg0.N) (bl : Fin 4) (i : Fin 200) (d : Fin 100) :
    ((cfg0.win 3).blk t).view.emb (ix3 bl i d) = ix3 (batchOf t bl) i d := by
  obtain ⟨-, -, -, -, -, -, -, -, e0, e1, e2⟩ := idx_facts t
  funext a; apply Fin.ext
  match a with
  | ⟨0, _⟩ => show win0_3.index t (0 : Fin 3) * 4 + 1 * bl.val = 4 * t.val + bl.val; omega
  | ⟨1, _⟩ => show win0_3.index t (1 : Fin 3) * 200 + 1 * i.val = i.val; omega
  | ⟨2, _⟩ => show win0_3.index t (2 : Fin 3) * 100 + 1 * d.val = d.val; omega

end Cert.KernelIdeal.KVal

end
-- ==== Proof.Spec.lean ====
/-
  The function both programs compute, stated once over the extended reals and importing neither program.

  Fix one batch element: `h j` is row `j` of its 200 gathered embedding rows (100 entries each), `adj i j` the relation
  code of the ordered pair (i, j), and `a0 … a3` the four relation vectors.  For a pair (i, j) and a relation vector `a`
  the SCORE is  Σ_d (h i d · a d) · h j d ;  it goes through the leaky rectifier (s if s ≥ 0, else 0.2·s, with 0.2 the
  binary32 word both programs print); the LOGIT of (i, j) is the rectified score of relation k when `adj i j = k`
  (k = 1 … 4, the later test winning) and the large negative fill otherwise.  Row i's WEIGHTS are the softmax of its
  logits as both programs spell it: the row maximum folded from -∞ (and joined with -∞ once more), the exponential of
  logit minus maximum, the sum of those over the row, their quotient.  The RESULT at (i, d) is  Σ_j weight i j · h j d.
  `G` is that, batch element by batch element, of the whole arrays.
-/
import Idealize.ShloMosaic.PureOps.Ideal
import Idealize.ShloMosaic.Lib.ValueIdx

noncomputable section

namespace Cert.Spec

open Idealize.ShloMosaic Idealize.ShloMosaic.ValueIdx

/-- The score of the pair of rows `hi`, `hj` under the relation vector `a`: Σ_d (hi d · a d) · hj d. -/
def score (hi hj a : Fin 100 → EReal) : EReal := ∑ d : Fin 100, (hi d * a d) * hj d

/-- The leaky rectifier with the printed slope word: `s` when `s ≥ 0`, else slope · `s`. -/
def leaky (s : EReal) : EReal :=
  Scalar.select (FloatOps.cmpf (F := Ideal) (φ := .f32) .oge s (Ideal.ofBits .f32 0x00000000#32)) s
    (Ideal.ofBits .f32 0x3E4CCCCD#32 * s)

/-- The logit of a pair from its relation code and the four rectified scores: relation 4's test is applied last and so
    wins, then 3, 2, 1; a code outside 1 … 4 gives the large negative fill. -/
def logit (code : BitVec 32) (e0 e1 e2 e3 : EReal) : EReal :=
  Scalar.select (IntOp.cmpi .eq code 4#32) e3
    (Scalar.select (IntOp.cmpi .eq code 3#32) e2
      (Scalar.select (IntOp.cmpi .eq code 2#32) e1
        (Scalar.select (IntOp.cmpi .eq code 1#32) e0 (Ideal.ofBits .f32 0xD9FFCB9E#32))))

section Batch

variable (h : Fin 200 → Fin 100 → EReal) (adj : Fin 200 → Fin 200 → BitVec 32) (a0 a1 a2 a3 : Fin 100 → EReal)

/-- The logit of the pair (i, j) of one batch element. -/
def logitAt (i j : Fin 200) : EReal :=
  logit (adj i j) (leaky (score (h i) (h j) a0)) (leaky (score (h i) (h j) a1)) (leaky (score (h i) (h j) a2))
    (leaky (score (h i) (h j) a3))

/-- Row i's maximum as both programs take it: -∞ joined with the fold of `max` from -∞ over the row's logits. -/
def rowMax (i : Fin 200) : EReal :=
  max (Ideal.ofBits .f32 0xFF800000#32)
    ((Finset.univ : Finset (Fin 200)).fold max (Ideal.ofBits .f32 0xFF800000#32) (fun j => logitAt h adj a0 a1 a2 a3 i j))

/-- The exponential of a logit less its row's maximum. -/
def expAt (i j : Fin 200) : EReal :=
  FloatOps.exp (F := Ideal) (φ := .f32) (logitAt h adj a0 a1 a2 a3 i j - rowMax h adj a0 a1 a2 a3 i)

/-- The sum of row i's exponentials. -/
def denom (i : Fin 200) : EReal := ∑ j : Fin 200, expAt h adj a0 a1 a2 a3 i j

/-- The softmax weight of the pair (i, j). -/
def weight (i j : Fin 200) : EReal := Ideal.div (expAt h adj a0 a1 a2 a3 i j) (denom h adj a0 a1 a2 a3 i)

/-- The result at (i, d): the rows of the batch element averaged with row i's weights. -/
def outAt (i : Fin 200) (d : Fin 100) : EReal := ∑ j : Fin 200, weight h adj a0 a1 a2 a3 i j * h j d

end Batch

/-- The result array of the whole arrays: entry (b, i, d) is `outAt` of batch element b's rows and relation codes;
    relation vector k is read down the one column of its [100, 1] array. -/
def G (h : (⟨3, ![32, 200, 100]⟩ : Shape).Idx → EReal) (adj : (⟨3, ![32, 200, 200]⟩ : Shape).Idx → BitVec 32)
    (a0 a1 a2 a3 : (⟨2, ![100, 1]⟩ : Shape).Idx → EReal) : (⟨3, ![32, 200, 100]⟩ : Shape).Idx → EReal :=
  fun y => outAt (fun j d => h (ix3 (y 0) j d)) (fun i j => adj (ix3 (y 0) i j))
    (fun d => a0 (ix2 d 0)) (fun d => a1 (ix2 d 0)) (fun d => a2 (ix2 d 0)) (fun d => a3 (ix2 d 0)) (y 1) (y 2)

end Cert.Spec

end
-- ==== Proof.PayloadDot.lean ====
/-
  The two batched products of the kernel body read at an output index, at the ideal values.

  The first contracts the last axis of both operands, batched over the leading axis: at (b, i, j) it is
  Σ_d l(b, i, d) · r(b, j, d).  The second contracts the left operand's last axis with the right operand's middle axis:
  at (b, i, d) it is Σ_j w(b, i, j) · r(b, j, d).  Both accumulate into the zero splat, so no accumulator term remains.
  The contraction index has one axis; the sum is re-indexed through its one coordinate.
-/
import Idealize.ShloMosaic.PureOps.Ideal.Laws
import Idealize.ShloMosaic.Lib.ValueIdx
import proofs.«103132_j84241488544091_2_alg».proof.Proof.Gen.KernelIdeal

noncomputable section

namespace Cert.KernelIdeal.PayValue

open Idealize.ShloMosaic Idealize.ShloMosaic.ValueIdx Cert.KernelIdeal

/-- The operand indices of the first product at output index (b, i, j) and contraction coordinate d:
    (b, i, d) on the left … -/
theorem scoreDot_lhsIdx [Facts₀] (b : Fin 4) (i j : Fin 200) (d : Fin 100) :
    dot_S4x200x100_S4x200x100_S4x200x200_2_2_1_1_0_0.lhsIdx (ix3 b i j)
        ((contrEquiv1 dot_S4x200x100_S4x200x100_S4x200x200_2_2_1_1_0_0 100 rfl rfl).symm d) = ix3 b i d := by
  funext a
  refine Fin.ext ?_
  match a with
  | ⟨0, _⟩ => rfl
  | ⟨1, _⟩ => rfl
  | ⟨2, _⟩ =>
    refine (DotDims.lhsIdx_val_of_single dot_S4x200x100_S4x200x100_S4x200x200_2_2_1_1_0_0 (cl := (2 : Fin 3)) rfl _ _).trans ?_
    exact contrEquiv1_symm_val _ 100 rfl rfl d

/-- … and (b, j, d) on the right. -/
theorem scoreDot_rhsIdx [Facts₀] (b : Fin 4) (i j : Fin 200) (d : Fin 100) :
    dot_S4x200x100_S4x200x100_S4x200x200_2_2_1_1_0_0.rhsIdx (ix3 b i j)
        ((contrEquiv1 dot_S4x200x100_S4x200x100_S4x200x200_2_2_1_1_0_0 100 rfl rfl).symm d) = ix3 b j d := by
  funext a
  refine Fin.ext ?_
  match a with
  | ⟨0, _⟩ => rfl
  | ⟨1, _⟩ => rfl
  | ⟨2, _⟩ =>
    refine (DotDims.rhsIdx_val_of_single dot_S4x200x100_S4x200x100_S4x200x200_2_2_1_1_0_0 (cr := (2 : Fin 3)) rfl _ _).trans ?_
    exact contrEquiv1_symm_val _ 100 rfl rfl d

/-- The first product at (b, i, j): Σ_d l(b, i, d) · r(b, j, d). -/
theorem scoreDot_apply [Facts₀] {φ₁ φ₂ : FTy} (l : FVec Ideal S4x200x100 φ₁) (r : FVec Ideal S4x200x100 φ₂)
    (b : Fin 4) (i j : Fin 200) :
    matmul dot_S4x200x100_S4x200x100_S4x200x200_2_2_1_1_0_0 none l r (constant (F := Ideal) S4x200x200 .f32 0x00000000#32)
        (ix3 b i j)
      = ∑ d : Fin 100, l (ix3 b i d) * r (ix3 b j d) := by
  refine (Ideal.matmul_constant_zero_apply _ none l r _).trans ?_
  refine (Equiv.sum_comp (contrEquiv1 dot_S4x200x100_S4x200x100_S4x200x200_2_2_1_1_0_0 100 rfl rfl).symm _).symm.trans ?_
  refine Finset.sum_congr rfl fun d _ => ?_
  rw [scoreDot_lhsIdx, scoreDot_rhsIdx]

/-- The operand indices of the second product at output index (b, i, d) and contraction coordinate j:
    (b, i, j) on the left … -/
theorem outDot_lhsIdx [Facts₀] (b : Fin 4) (i : Fin 200) (d : Fin 100) (j : Fin 200) :
    dot_S4x200x200_S4x200x100_S4x200x100_2_1_1_2_0_0.lhsIdx (ix3 b i d)
        ((contrEquiv1 dot_S4x200x200_S4x200x100_S4x200x100_2_1_1_2_0_0 200 rfl rfl).symm j) = ix3 b i j := by
  funext a
  refine Fin.ext ?_
  match a with
  | ⟨0, _⟩ => rfl
  | ⟨1, _⟩ => rfl
  | ⟨2, _⟩ =>
    refine (DotDims.lhsIdx_val_of_single dot_S4x200x200_S4x200x100_S4x200x100_2_1_1_2_0_0 (cl := (2 : Fin 3)) rfl _ _).trans ?_
    exact contrEquiv1_symm_val _ 200 rfl rfl j

/-- … and (b, j, d) on the right. -/
theorem outDot_rhsIdx [Facts₀] (b : Fin 4) (i : Fin 200) (d : Fin 100) (j : Fin 200) :
    dot_S4x200x200_S4x200x100_S4x200x100_2_1_1_2_0_0.rhsIdx (ix3 b i d)
        ((contrEquiv1 dot_S4x200x200_S4x200x100_S4x200x100_2_1_1_2_0_0 200 rfl rfl).symm j) = ix3 b j d := by
  funext a
  refine Fin.ext ?_
  match a with
  | ⟨0, _⟩ => rfl
  | ⟨1, _⟩ =>
    refine (DotDims.rhsIdx_val_of_single dot_S4x200x200_S4x200x100_S4x200x100_2_1_1_2_0_0 (cr := (1 : Fin 3)) rfl _ _).trans ?_
    exact contrEquiv1_symm_val _ 200 rfl rfl j
  | ⟨2, _⟩ => rfl

/-- The second product at (b, i, d): Σ_j w(b, i, j) · r(b, j, d). -/
theorem outDot_apply [Facts₀] {φ₁ φ₂ : FTy} (w : FVec Ideal S4x200x200 φ₁) (r : FVec Ideal S4x200x100 φ₂)
    (b : Fin 4) (i : Fin 200) (d : Fin 100) :
    matmul dot_S4x200x200_S4x200x100_S4x200x100_2_1_1_2_0_0 none w r (constant (F := Ideal) S4x200x100 .f32 0x00000000#32)
        (ix3 b i d)
      = ∑ j : Fin 200, w (ix3 b i j) * r (ix3 b j d) := by
  refine (Ideal.matmul_constant_zero_apply _ none w r _).trans ?_
  refine (Equiv.sum_comp (contrEquiv1 dot_S4x200x200_S4x200x100_S4x200x100_2_1_1_2_0_0 200 rfl rfl).symm _).symm.trans ?_
  refine Finset.sum_congr rfl fun j _ => ?_
  rw [outDot_lhsIdx, outDot_rhsIdx]

end Cert.KernelIdeal.PayValue

end
-- ==== Proof.PayloadLayout.lean ====
/-
  The layout chains of the kernel body read at an index.

  A relation vector is loaded as a [1, 100] row, viewed as a [100] vector, then as [1, 1, 100], and broadcast to
  [4, 200, 100]: at (b, i, d) the result is the row's entry d.  A per-row statistic of shape [4, 200] is viewed as
  [4, 200, 1] and broadcast along the last axis to [4, 200, 200]: at (b, i, j) the result is the statistic of row (b, i).
  Each view keeps the row-major position; each broadcast reads coordinate 0 on the unit axes.
-/
import Idealize.ShloMosaic.Lib.Pipeline.Value
import Idealize.ShloMosaic.Lib.ValueIdx
import proofs.«103132_j84241488544091_2_alg».proof.Proof.Gen.KernelIdeal

noncomputable section

namespace Cert.KernelIdeal.PayValue

open Idealize.ShloMosaic Idealize.ShloMosaic.ValueIdx Cert.KernelIdeal

variable {α : Type}

/-- A [1, 100] row viewed as [100], then as [1, 1, 100], broadcast to [4, 200, 100], reads at (b, i, d) the row's
    entry d. -/
theorem relRow_apply (v : S1x100.Idx → α) (h1 : S1x100.ShapeCasts S100) (h2 : S100.ShapeCasts S1x1x100)
    (h3 : S1x1x100.Broadcasts S4x200x100) (b : Fin 4) (i : Fin 200) (d : Fin 100) :
    broadcastTo S4x200x100 (shapeCast S1x1x100 (shapeCast S100 v h1) h2) h3 (ix3 b i d) = v (ix2 (0 : Fin 1) d) := by
  refine (broadcastTo_apply _ h3 (ix3 b i d) (ix3 (0 : Fin 1) (0 : Fin 1) d) fun a => ?_).trans ?_
  · match a with
    | ⟨0, _⟩ => rfl
    | ⟨1, _⟩ => rfl
    | ⟨2, _⟩ => rfl
  refine (shapeCast_apply _ h2 (ix3 (0 : Fin 1) (0 : Fin 1) d) (ix1 d) ?_).trans ?_
  · rw [Shape.rowMajor_val_one, Shape.rowMajor_val_three]
    show d.val = (0 * 1 + 0) * 100 + d.val
    omega
  refine shapeCast_apply v h1 (ix1 d) (ix2 (0 : Fin 1) d) ?_
  rw [Shape.rowMajor_val_two, Shape.rowMajor_val_one]
  show 0 * 100 + d.val = d.val
  omega

/-- The first two steps alone (the row viewed as [1, 1, 100]) read at (0, 0, d) the row's entry d. -/
theorem relRowCast_apply (v : S1x100.Idx → α) (h1 : S1x100.ShapeCasts S100) (h2 : S100.ShapeCasts S1x1x100)
    (u u' : Fin 1) (d : Fin 100) :
    shapeCast S1x1x100 (shapeCast S100 v h1) h2 (ix3 u u' d) = v (ix2 (0 : Fin 1) d) := by
  have hu : u.val = 0 := by omega
  have hu' : u'.val = 0 := by omega
  refine (shapeCast_apply _ h2 (ix3 u u' d) (ix1 d) ?_).trans ?_
  · rw [Shape.rowMajor_val_one, Shape.rowMajor_val_three]
    show d.val = (u.val * 1 + u'.val) * 100 + d.val
    omega
  refine shapeCast_apply v h1 (ix1 d) (ix2 (0 : Fin 1) d) ?_
  rw [Shape.rowMajor_val_two, Shape.rowMajor_val_one]
  show 0 * 100 + d.val = d.val
  omega

/-- A [1, 1, 100] vector broadcast to [4, 200, 100] reads at (b, i, d) its entry (0, 0, d). -/
theorem relBroadcast_apply (w : S1x1x100.Idx → α) (h3 : S1x1x100.Broadcasts S4x200x100)
    (b : Fin 4) (i : Fin 200) (d : Fin 100) :
    broadcastTo S4x200x100 w h3 (ix3 b i d) = w (ix3 (0 : Fin 1) (0 : Fin 1) d) := by
  refine broadcastTo_apply w h3 (ix3 b i d) (ix3 (0 : Fin 1) (0 : Fin 1) d) fun a => ?_
  match a with
  | ⟨0, _⟩ => rfl
  | ⟨1, _⟩ => rfl
  | ⟨2, _⟩ => rfl

/-- A [4, 200] statistic viewed as [4, 200, 1] and broadcast to [4, 200, 200] reads at (b, i, j) the statistic of
    row (b, i). -/
theorem keepdims_apply (x : S4x200.Idx → α) (h1 : S4x200.ShapeCasts S4x200x1) (h2 : S4x200x1.Broadcasts S4x200x200)
    (b : Fin 4) (i j : Fin 200) :
    broadcastTo S4x200x200 (shapeCast S4x200x1 x h1) h2 (ix3 b i j) = x (ix2 b i) := by
  refine (broadcastTo_apply _ h2 (ix3 b i j) (ix3 b i (0 : Fin 1)) fun a => ?_).trans ?_
  · match a with
    | ⟨0, _⟩ => rfl
    | ⟨1, _⟩ => rfl
    | ⟨2, _⟩ => rfl
  refine shapeCast_apply x h1 (ix3 b i (0 : Fin 1)) (ix2 b i) ?_
  rw [Shape.rowMajor_val_two, Shape.rowMajor_val_three]
  show b.val * 200 + i.val = (b.val * 200 + i.val) * 1 + 0
  omega

end Cert.KernelIdeal.PayValue

end
-- ==== Proof.PayloadScore.lean ====
/-
  The rectified scores of one relation, and the first two relations' part of the logits, read at a pair of rows.

  For batch element b, rows i, j and a relation row a, the body's batched product of (rows · a) with the rows is the
  specification's score  Σ_d (h(b,i,d) · a(d)) · h(b,j,d);  the comparison with zero, the product with the slope word and
  the select are the specification's leaky rectifier of it.  The first part of the body ends in the select chain on
  relation codes 1 and 2 over the fill word.
-/
import proofs.«103132_j84241488544091_2_alg».proof.Proof.Gen.KernelIdeal.Skeleton
import proofs.«103132_j84241488544091_2_alg».proof.Proof.Spec
import proofs.«103132_j84241488544091_2_alg».proof.Proof.PayloadDot
import proofs.«103132_j84241488544091_2_alg».proof.Proof.PayloadLayout

noncomputable section

namespace Cert.KernelIdeal.PayValue

open Idealize.ShloMosaic Idealize.ShloMosaic.ValueIdx Cert.KernelIdeal

/-- An integer comparison at an index compares the elements. -/
theorem cmpi_apply {s : Shape} {w : Nat} (p : CmpIPredicate) (x y : IVec s w) (i : s.Idx) :
    cmpi p x y i = IntOp.cmpi p (x i) (y i) := rfl

/-- The score of rows i and j of batch element b under the relation row `a`. -/
def scoreAt (v0 : Vec Ideal S4x200x100 .f32) (a : Vec Ideal S1x100 .f32) (b : Fin 4) (i j : Fin 200) : EReal :=
  Cert.Spec.score (fun d => v0 (ix3 b i d)) (fun d => v0 (ix3 b j d)) (fun d => a (ix2 (0 : Fin 1) d))

/-- The loaded block under its identity cast is the block. -/
theorem pay1_apply (v0 : Vec Ideal S4x200x100 .f32) (x : S4x200x100.Idx) : Gen.k0_pay1 (F := Ideal) v0 x = v0 x :=
  congrFun (shapeCast_self v0 _) x

/-- Its narrowing to bf16 is the identity at the ideal values. -/
theorem pay2_apply (v0 : Vec Ideal S4x200x100 .f32) (x : S4x200x100.Idx) :
    (Gen.k0_pay2 (F := Ideal) v0 x : EReal) = v0 x :=
  pay1_apply v0 x

/-- The rectifier as the body spells it — compare with the zero splat, scale by the slope splat, select — is the
    specification's, element by element. -/
theorem leaky_apply {s : Shape} (m : FVec Ideal s .f32) (x : s.Idx) :
    select (cmpf .oge m (broadcast s (Scalar.ofBits (F := Ideal) .f32 0x00000000#32))) m
        (mulf (broadcast s (Scalar.ofBits (F := Ideal) .f32 0x3E4CCCCD#32)) m) x
      = Cert.Spec.leaky (m x) := rfl

/-- The batched product of (block · broadcast relation row) with the block, at (b, i, j), is the score. -/
theorem relScore_apply [Facts₀] (v0 : Vec Ideal S4x200x100 .f32) (a : Vec Ideal S1x100 .f32)
    (h1 : S1x100.ShapeCasts S100) (h2 : S100.ShapeCasts S1x1x100) (h3 : S1x1x100.Broadcasts S4x200x100)
    (hb : FTy.bits .bf16 < FTy.bits .f32) (b : Fin 4) (i j : Fin 200) :
    matmul dot_S4x200x100_S4x200x100_S4x200x200_2_2_1_1_0_0 none
        (truncf .bf16 (mulf (Gen.k0_pay1 v0) (broadcastTo S4x200x100 (shapeCast S1x1x100 (shapeCast S100 a h1) h2) h3)) hb)
        (Gen.k0_pay2 v0) (constant (F := Ideal) S4x200x200 .f32 0x00000000#32) (ix3 b i j)
      = scoreAt v0 a b i j := by
  refine (scoreDot_apply _ _ b i j).trans ?_
  unfold scoreAt Cert.Spec.score
  refine Finset.sum_congr rfl fun d _ => ?_
  show (Gen.k0_pay1 v0 (ix3 b i d) * broadcastTo S4x200x100 (shapeCast S1x1x100 (shapeCast S100 a h1) h2) h3 (ix3 b i d))
      * Gen.k0_pay2 v0 (ix3 b j d) = (v0 (ix3 b i d) * a (ix2 (0 : Fin 1) d)) * v0 (ix3 b j d)
  rw [pay1_apply, relRow_apply, pay2_apply]

/-- The first part's stored logits at (b, i, j): relation 2's rectified score where the code is 2, else relation 1's where
    it is 1, else the fill. -/
theorem pay3_apply (v0 : Vec Ideal S4x200x100 .f32) (v2 : Vec Ideal S4x200x200 .i32) (v5 v20 : Vec Ideal S1x100 .f32)
    (b : Fin 4) (i j : Fin 200) :
    Gen.k0_pay3 (F := Ideal) v0 v2 v5 v20 (ix3 b i j)
      = Scalar.select (IntOp.cmpi .eq (v2 (ix3 b i j)) 2#32) (Cert.Spec.leaky (scoreAt v0 v20 b i j))
          (Scalar.select (IntOp.cmpi .eq (v2 (ix3 b i j)) 1#32) (Cert.Spec.leaky (scoreAt v0 v5 b i j))
            (Ideal.ofBits .f32 0xD9FFCB9E#32)) := by
  unfold Gen.k0_pay3
  refine (select_apply _ _ _ _).trans ?_
  refine congr (congrArg (Scalar.select _) ?_) ?_
  · refine (leaky_apply _ _).trans (congrArg Cert.Spec.leaky ?_)
    exact relScore_apply v0 v20 _ _ _ _ b i j
  · refine (select_apply _ _ _ _).trans ?_
    refine congr (congrArg (Scalar.select _) ?_) rfl
    refine (leaky_apply _ _).trans (congrArg Cert.Spec.leaky ?_)
    exact relScore_apply v0 v5 _ _ _ _ b i j

end Cert.KernelIdeal.PayValue

end
-- ==== Proof.PayloadReduce.lean ====
/-
  The two row reductions of the kernel body read at a row, at the ideal values.

  Both reduce a [4, 200, 200] vector over its last axis into [4, 200].  The maximum at row (b, i) is the fold of `max`,
  from the value of the accumulator word (the pattern of -∞), over the row's 200 entries; the sum at row (b, i) is the
  sum of the row's 200 entries.  The source index over row (b, i) with last coordinate k is (b, i, k).
-/
import Idealize.ShloMosaic.PureOps.Ideal.Laws
import Idealize.ShloMosaic.Lib.ValueIdx
import proofs.«103132_j84241488544091_2_alg».proof.Proof.Gen.KernelIdeal

noncomputable section

namespace Cert.KernelIdeal.PayValue

open Idealize.ShloMosaic Idealize.ShloMosaic.ValueIdx Cert.KernelIdeal

/-- The source index over row (b, i) with last coordinate k is (b, i, k). -/
theorem rowLift (h : S4x200x200.Reduces [2] S4x200) (b : Fin 4) (i : Fin 200) (k : Fin 200) :
    h.lift (ix2 b i) k = ix3 b i k := by
  funext c
  refine Fin.ext ?_
  match c with
  | ⟨0, _⟩ => rfl
  | ⟨1, _⟩ => rfl
  | ⟨2, _⟩ => rfl

/-- The row maximum at (b, i): the fold of `max` from the accumulator's value over the row. -/
theorem rowMax_apply (src : FVec Ideal S4x200x200 .f32) (h : S4x200x200.Reduces [2] S4x200) (hφ : FKind.Formats .f32)
    (hacc : (0xFF800000#32 : BitVec 32) = FKind.maximumf.neutral .f32 hφ) (b : Fin 4) (i : Fin 200) :
    multiReduction (F := Ideal) .maximumf [2] S4x200 src 0xFF800000#32 h hφ hacc (ix2 b i)
      = (Finset.univ : Finset (Fin 200)).fold max (Ideal.ofBits .f32 0xFF800000#32) (fun k => src (ix3 b i k)) := by
  refine (Ideal.multiReduction_maximumf_single src 0xFF800000#32 h hφ hacc (ix2 b i)).trans ?_
  refine congrArg (fun f => (Finset.univ : Finset (Fin 200)).fold max (Ideal.ofBits .f32 0xFF800000#32) f) ?_
  funext k
  exact congrArg src (rowLift h b i k)

/-- The row sum at (b, i): the sum of the row's entries. -/
theorem rowSum_apply (src : FVec Ideal S4x200x200 .f32) (h : S4x200x200.Reduces [2] S4x200) (hφ : FKind.Formats .f32)
    (hacc : (0x00000000#32 : BitVec 32) = FKind.add.neutral .f32 hφ) (b : Fin 4) (i : Fin 200) :
    multiReduction (F := Ideal) .add [2] S4x200 src 0x00000000#32 h hφ hacc (ix2 b i)
      = ∑ k : Fin 200, src (ix3 b i k) := by
  refine (Ideal.multiReduction_add_single src 0x00000000#32 h hφ hacc (ix2 b i)).trans ?_
  refine Finset.sum_congr rfl fun k _ => ?_
  exact congrArg src (rowLift h b i k)

end Cert.KernelIdeal.PayValue

end
-- ==== Proof.PayloadSoftmax.lean ====
/-
  The row softmax and the weighted sum of the rows, as the kernel body spells them, read at an output index.

  From a [4, 200, 200] vector L of logits the body takes, row by row: the maximum folded from -∞ and joined with -∞ once
  more; the exponential of each logit less its row's maximum; the row's sum of those; their quotient; and the batched
  product of the quotients with the rows.  At (b, i, d) that is
      Σ_j  ( e_j / Σ_k e_k ) · r(b, j, d),      e_j = exp( L(b,i,j) − max(−∞, fold max (−∞) L(b,i,·)) ),
  a function of row (b, i) of L alone.
-/
import proofs.«103132_j84241488544091_2_alg».proof.Proof.Gen.KernelIdeal
import proofs.«103132_j84241488544091_2_alg».proof.Proof.PayloadDot
import proofs.«103132_j84241488544091_2_alg».proof.Proof.PayloadLayout
import proofs.«103132_j84241488544091_2_alg».proof.Proof.PayloadReduce

noncomputable section

namespace Cert.KernelIdeal.PayValue

open Idealize.ShloMosaic Idealize.ShloMosaic.ValueIdx Cert.KernelIdeal

/-- An exponential at an index is the element's exponential. -/
theorem expAt_apply {s : Shape} {φ : FTy} (x : FVec Ideal s φ) (i : s.Idx) : exp x i = FloatOps.exp (x i) := rfl

/-- A row's maximum as the body takes it: -∞ joined with the fold of `max` from -∞ over the row. -/
def rowMaxOf (l : Fin 200 → EReal) : EReal :=
  max (Ideal.ofBits .f32 0xFF800000#32) ((Finset.univ : Finset (Fin 200)).fold max (Ideal.ofBits .f32 0xFF800000#32) l)

/-- The exponential of entry j of a row less the row's maximum. -/
def expOf (l : Fin 200 → EReal) (j : Fin 200) : EReal :=
  FloatOps.exp (F := Ideal) (φ := .f32) (l j - rowMaxOf l)

/-- The softmax weights of the row `l` applied to the column `r`: Σ_j (e_j / Σ_k e_k) · r_j. -/
def softmaxOut (l r : Fin 200 → EReal) : EReal :=
  ∑ j : Fin 200, Ideal.div (expOf l j) (∑ k : Fin 200, expOf l k) * r j

section Tail

variable (L : FVec Ideal S4x200x200 .f32)
  (hr : S4x200x200.Reduces [2] S4x200) (hφ : FKind.Formats .f32)
  (hmax : (0xFF800000#32 : BitVec 32) = FKind.maximumf.neutral .f32 hφ)
  (hadd : (0x00000000#32 : BitVec 32) = FKind.add.neutral .f32 hφ)
  (hc : S4x200.ShapeCasts S4x200x1) (hbc : S4x200x1.Broadcasts S4x200x200)

/-- The row maxima of L as the body takes them. -/
def rowMaxVec : FVec Ideal S4x200 .f32 :=
  maximumf (broadcast S4x200 (Scalar.ofBits (F := Ideal) .f32 0xFF800000#32))
    (multiReduction (F := Ideal) .maximumf [2] S4x200 L 0xFF800000#32 hr hφ hmax)

/-- At row (b, i) they are `rowMaxOf` of the row. -/
theorem rowMaxVec_apply (b : Fin 4) (i : Fin 200) :
    rowMaxVec L hr hφ hmax (ix2 b i) = rowMaxOf (fun k => L (ix3 b i k)) := by
  unfold rowMaxVec rowMaxOf
  refine (maximumf_apply _ _ _).trans ?_
  exact congrArg (max (Ideal.ofBits .f32 0xFF800000#32)) (rowMax_apply L hr hφ hmax b i)

/-- The exponentials of L less its row maxima, the maxima kept as a last unit axis and broadcast along it. -/
def expVec : FVec Ideal S4x200x200 .f32 :=
  exp (subf L (broadcastTo S4x200x200 (shapeCast S4x200x1 (rowMaxVec L hr hφ hmax) hc) hbc))

/-- At (b, i, j) they are `expOf` of row (b, i) at j. -/
theorem expVec_apply (b : Fin 4) (i j : Fin 200) :
    expVec L hr hφ hmax hc hbc (ix3 b i j) = expOf (fun k => L (ix3 b i k)) j := by
  unfold expVec expOf
  refine (expAt_apply _ _).trans ?_
  refine congrArg (FloatOps.exp (F := Ideal) (φ := .f32)) ?_
  refine (subf_apply _ _ _).trans ?_
  refine congrArg (L (ix3 b i j) - ·) ?_
  exact (keepdims_apply _ hc hbc b i j).trans (rowMaxVec_apply L hr hφ hmax b i)

/-- The quotients of the exponentials by their row sums, the sums kept as a last unit axis and broadcast along it. -/
def weightVec : FVec Ideal S4x200x200 .f32 :=
  divf (expVec L hr hφ hmax hc hbc)
    (broadcastTo S4x200x200
      (shapeCast S4x200x1 (multiReduction (F := Ideal) .add [2] S4x200 (expVec L hr hφ hmax hc hbc) 0x00000000#32 hr hφ hadd) hc)
      hbc)

/-- At (b, i, j): e_j / Σ_k e_k of row (b, i). -/
theorem weightVec_apply (b : Fin 4) (i j : Fin 200) :
    weightVec L hr hφ hmax hadd hc hbc (ix3 b i j)
      = Ideal.div (expOf (fun k => L (ix3 b i k)) j) (∑ k : Fin 200, expOf (fun k => L (ix3 b i k)) k) := by
  unfold weightVec
  refine (divf_apply _ _ _).trans ?_
  refine congr (congrArg Ideal.div (expVec_apply L hr hφ hmax hc hbc b i j)) ?_
  refine (keepdims_apply _ hc hbc b i j).trans ?_
  refine (rowSum_apply _ hr hφ hadd b i).trans ?_
  exact Finset.sum_congr rfl fun k _ => expVec_apply L hr hφ hmax hc hbc b i k

/-- The body's last product — the quotients, narrowed to bf16, times the rows — at (b, i, d). -/
theorem softmaxTail_apply [Facts₀] (v3 : FVec Ideal S4x200x100 .bf16) (hb : FTy.bits .bf16 < FTy.bits .f32)
    (b : Fin 4) (i : Fin 200) (d : Fin 100) :
    matmul dot_S4x200x200_S4x200x100_S4x200x100_2_1_1_2_0_0 none
        (truncf .bf16 (weightVec L hr hφ hmax hadd hc hbc) hb) v3 (constant (F := Ideal) S4x200x100 .f32 0x00000000#32)
        (ix3 b i d)
      = softmaxOut (fun j => L (ix3 b i j)) (fun j => v3 (ix3 b j d)) := by
  refine (outDot_apply _ v3 b i d).trans ?_
  unfold softmaxOut
  refine Finset.sum_congr rfl fun j _ => ?_
  exact congrArg (· * v3 (ix3 b j d)) (weightVec_apply L hr hφ hmax hadd hc hbc b i j)

end Tail

end Cert.KernelIdeal.PayValue

end
-- ==== Proof.PayloadValue.lean ====
/-
  The value the kernel body stores, read at an index: the specification's result for the index's batch element.

  The body's second part finishes the logits — relation 3's rectified score where the code is 3 and relation 4's where it
  is 4, over the first part's select chain — and applies the row softmax and the weighted sum of the rows to them.  Row
  (b, i) of the logits is the specification's `logitAt` for batch element b; the softmax tail is a function of that row and
  of the column of the rows, so the stored value at (b, i, d) is the specification's `outAt` at (i, d).
-/
import proofs.«103132_j84241488544091_2_alg».proof.Proof.Gen.KernelIdeal.Skeleton
import proofs.«103132_j84241488544091_2_alg».proof.Proof.Spec
import proofs.«103132_j84241488544091_2_alg».proof.Proof.PayloadScore
import proofs.«103132_j84241488544091_2_alg».proof.Proof.PayloadSoftmax

noncomputable section

namespace Cert.KernelIdeal.PayValue

open Idealize.ShloMosaic Idealize.ShloMosaic.ValueIdx Cert.KernelIdeal

/-- The specification's result is the softmax tail of its row of logits and its column of rows. -/
theorem outAt_eq_softmaxOut (h : Fin 200 → Fin 100 → EReal) (adj : Fin 200 → Fin 200 → BitVec 32)
    (a0 a1 a2 a3 : Fin 100 → EReal) (i : Fin 200) (d : Fin 100) :
    Cert.Spec.outAt h adj a0 a1 a2 a3 i d
      = softmaxOut (fun j => Cert.Spec.logitAt h adj a0 a1 a2 a3 i j) (fun j => h j d) := rfl

/-- The specification's logit of the pair (i, j) of batch element bl, spelt as the select chain on the relation code
    over the four rectified scores. -/
theorem logitAt_eq (v0 : Vec Ideal S4x200x100 .f32) (v2 : Vec Ideal S4x200x200 .i32) (v5 v20 v35 v50 : Vec Ideal S1x100 .f32)
    (bl : Fin 4) (i j : Fin 200) :
    Cert.Spec.logitAt (fun j d' => v0 (ix3 bl j d')) (fun i' j => v2 (ix3 bl i' j))
        (fun d' => v5 (ix2 0 d')) (fun d' => v20 (ix2 0 d')) (fun d' => v35 (ix2 0 d')) (fun d' => v50 (ix2 0 d')) i j
      = Scalar.select (IntOp.cmpi .eq (v2 (ix3 bl i j)) 4#32) (Cert.Spec.leaky (scoreAt v0 v50 bl i j))
          (Scalar.select (IntOp.cmpi .eq (v2 (ix3 bl i j)) 3#32) (Cert.Spec.leaky (scoreAt v0 v35 bl i j))
            (Scalar.select (IntOp.cmpi .eq (v2 (ix3 bl i j)) 2#32) (Cert.Spec.leaky (scoreAt v0 v20 bl i j))
              (Scalar.select (IntOp.cmpi .eq (v2 (ix3 bl i j)) 1#32) (Cert.Spec.leaky (scoreAt v0 v5 bl i j))
                (Ideal.ofBits .f32 0xD9FFCB9E#32)))) := rfl

/-- THE STORED VALUE AT (bl, i, d) is the specification's result at (i, d) for batch element bl's rows and relation
    codes and the four relation rows. -/
theorem stored_apply (v0 : Vec Ideal S4x200x100 .f32) (v2 : Vec Ideal S4x200x200 .i32) (v5 v20 v35 v50 : Vec Ideal S1x100 .f32)
    (bl : Fin 4) (i : Fin 200) (d : Fin 100) :
    Gen.k0_pay5 (F := Ideal) (Gen.k0_pay1 v0) v2 (Gen.k0_pay2 v0) (Gen.k0_pay3 v0 v2 v5 v20) (Gen.k0_pay4 v35) v50 (ix3 bl i d)
      = Cert.Spec.outAt (fun j d' => v0 (ix3 bl j d')) (fun i' j => v2 (ix3 bl i' j))
          (fun d' => v5 (ix2 0 d')) (fun d' => v20 (ix2 0 d')) (fun d' => v35 (ix2 0 d')) (fun d' => v50 (ix2 0 d')) i d := by
  unfold Gen.k0_pay5
  -- the logits vector occurs four times in the softmax tail: name it
  generalize hL : select (cmpi CmpIPredicate.eq v2 (broadcast S4x200x200 4#32)) _ _ = L
  -- row (bl, i) of the logits is the specification's
  have hLj : ∀ j : Fin 200, L (ix3 bl i j)
      = Cert.Spec.logitAt (fun j d' => v0 (ix3 bl j d')) (fun i' j => v2 (ix3 bl i' j))
          (fun d' => v5 (ix2 0 d')) (fun d' => v20 (ix2 0 d')) (fun d' => v35 (ix2 0 d')) (fun d' => v50 (ix2 0 d')) i j := by
    intro j
    subst hL
    refine Eq.trans ?_ (logitAt_eq v0 v2 v5 v20 v35 v50 bl i j).symm
    refine (select_apply _ _ _ _).trans ?_
    refine congr (congrArg (Scalar.select _) ?_) ?_
    · refine (leaky_apply _ _).trans (congrArg Cert.Spec.leaky ?_)
      exact relScore_apply v0 v50 _ _ _ _ bl i j
    · refine (select_apply _ _ _ _).trans ?_
      refine congr (congrArg (Scalar.select _) ?_) (pay3_apply v0 v2 v5 v20 bl i j)
      refine (leaky_apply _ _).trans (congrArg Cert.Spec.leaky ?_)
      exact relScore_apply v0 v35 _ _ _ _ bl i j
  -- the tail is a function of that row and of the column of the rows
  refine (softmaxTail_apply L _ _ _ _ _ _ (Gen.k0_pay2 v0) _ bl i d).trans ?_
  refine Eq.trans ?_ (outAt_eq_softmaxOut _ _ _ _ _ _ i d).symm
  exact congr (congrArg softmaxOut (funext hLj)) (funext fun j => pay2_apply v0 (ix3 bl j d))

end Cert.KernelIdeal.PayValue

end
-- ==== Proof.KernelValue.lean ====
/-
  The kernel's result array.

  The body's stored value at entry (bl, i, d) of a block is the specification's `outAt` of the block's batch element bl
  (its rows, its relation codes) and the four rows of the stack.  Point t's block of the gathered rows and of the codes is
  batch elements 4t … 4t+3 of the arrays, and row k of the stack is relation vector k read down its column; so what point
  t writes back is block t of ONE function of the arrays, `result`.  The eight blocks tile the batch axis — entry
  (b, i, d) lies in the block of point b / 4 — so after the run the result array is `result`.
-/
import proofs.«103132_j84241488544091_2_alg».proof.Proof.KernelBlocks
import proofs.«103132_j84241488544091_2_alg».proof.Proof.Spec
import proofs.«103132_j84241488544091_2_alg».proof.Proof.PayloadValue

set_option maxRecDepth 16384

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-! ## The stored value over any three blocks -/

theorem hz2 : (![0, 0] : Fin 2 → Nat) = fun _ => 0 := funext fun a => by fin_cases a <;> rfl

/-- The load of row 0 of a [4, 100] block, read at (0, d), is the block at (0, d). -/
theorem ld_row0 (x2 : Vec Ideal S4x100 .f32) (d : Fin 100) : View.ld x2 rVec0 (ix2 (0 : Fin 1) d) = x2 (ix2 (0 : Fin 4) d) := by
  show x2 (rVec0.emb (ix2 (0 : Fin 1) d)) = x2 (ix2 (0 : Fin 4) d)
  refine congrArg x2 (funext fun a => Fin.ext ?_)
  match a with
  | ⟨0, _⟩ => simp only [Rect.emb_apply, Rect.off_unit, Rect.stride_unit]; rfl
  | ⟨1, _⟩ => simp only [Rect.emb_apply, Rect.off_unit, Rect.stride_unit]; show 0 + 1 * d.val = d.val; omega
/-- The load of row 1 of a [4, 100] block, read at (0, d), is the block at (1, d). -/
theorem ld_row1 (x2 : Vec Ideal S4x100 .f32) (d : Fin 100) : View.ld x2 rVec1 (ix2 (0 : Fin 1) d) = x2 (ix2 (1 : Fin 4) d) := by
  show x2 (rVec1.emb (ix2 (0 : Fin 1) d)) = x2 (ix2 (1 : Fin 4) d)
  refine congrArg x2 (funext fun a => Fin.ext ?_)
  match a with
  | ⟨0, _⟩ => simp only [Rect.emb_apply, Rect.off_unit, Rect.stride_unit]; rfl
  | ⟨1, _⟩ => simp only [Rect.emb_apply, Rect.off_unit, Rect.stride_unit]; show 0 + 1 * d.val = d.val; omega
/-- The load of row 2 of a [4, 100] block, read at (0, d), is the block at (2, d). -/
theorem ld_row2 (x2 : Vec Ideal S4x100 .f32) (d : Fin 100) : View.ld x2 rVec2 (ix2 (0 : Fin 1) d) = x2 (ix2 (2 : Fin 4) d) := by
  show x2 (rVec2.emb (ix2 (0 : Fin 1) d)) = x2 (ix2 (2 : Fin 4) d)
  refine congrArg x2 (funext fun a => Fin.ext ?_)
  match a with
  | ⟨0, _⟩ => simp only [Rect.emb_apply, Rect.off_unit, Rect.stride_unit]; rfl
  | ⟨1, _⟩ => simp only [Rect.emb_apply, Rect.off_unit, Rect.stride_unit]; show 0 + 1 * d.val = d.val; omega
/-- The load of row 3 of a [4, 100] block, read at (0, d), is the block at (3, d). -/
theorem ld_row3 (x2 : Vec Ideal S4x100 .f32) (d : Fin 100) : View.ld x2 rVec3 (ix2 (0 : Fin 1) d) = x2 (ix2 (3 : Fin 4) d) := by
  show x2 (rVec3.emb (ix2 (0 : Fin 1) d)) = x2 (ix2 (3 : Fin 4) d)
  refine congrArg x2 (funext fun a => Fin.ext ?_)
  match a with
  | ⟨0, _⟩ => simp only [Rect.emb_apply, Rect.off_unit, Rect.stride_unit]; rfl
  | ⟨1, _⟩ => simp only [Rect.emb_apply, Rect.off_unit, Rect.stride_unit]; show 0 + 1 * d.val = d.val; omega

/-- The specification's result depends on the relation vectors only through their entries. -/
theorem outAt_congr (h : Fin 200 → Fin 100 → EReal) (adj : Fin 200 → Fin 200 → BitVec 32) {a0 a1 a2 a3 b0 b1 b2 b3 : Fin 100 → EReal}
    (e0 : ∀ d, a0 d = b0 d) (e1 : ∀ d, a1 d = b1 d) (e2 : ∀ d, a2 d = b2 d) (e3 : ∀ d, a3 d = b3 d) (i : Fin 200) (d : Fin 100) :
    Cert.Spec.outAt h adj a0 a1 a2 a3 i d = Cert.Spec.outAt h adj b0 b1 b2 b3 i d := by
  obtain rfl : a0 = b0 := funext e0
  obtain rfl : a1 = b1 := funext e1
  obtain rfl : a2 = b2 := funext e2
  obtain rfl : a3 = b3 := funext e3
  rfl

/-- A load of a whole block is the block. -/
theorem ld_rows (x0 : Vec Ideal S4x200x100 .f32) : View.ld x0 rRows = x0 := View.ld_unit_zero hz3 _ x0
theorem ld_codes (x1 : Vec Ideal S4x200x200 .i32) : View.ld x1 rCodes = x1 := View.ld_unit_zero hz3 _ x1

/-- The body's stored value of three blocks, at entry (bl, i, d): the specification's result for batch element bl of the
    blocks, with the stack's rows as the relation vectors. -/
theorem stored_eq (x0 : Vec Ideal S4x200x100 .f32) (x1 : Vec Ideal S4x200x200 .i32) (x2 : Vec Ideal S4x100 .f32)
    (bl : Fin 4) (i : Fin 200) (d : Fin 100) :
    stored (F := Ideal) x0 x1 x2 (ix3 bl i d)
      = Cert.Spec.outAt (fun j d' => x0 (ix3 bl j d')) (fun i' j => x1 (ix3 bl i' j))
          (fun d' => x2 (ix2 (0 : Fin 4) d')) (fun d' => x2 (ix2 (1 : Fin 4) d')) (fun d' => x2 (ix2 (2 : Fin 4) d')) (fun d' => x2 (ix2 (3 : Fin 4) d')) i d := by
  unfold stored
  rw [ld_rows, ld_codes]
  refine (Cert.KernelIdeal.PayValue.stored_apply x0 x1 (View.ld x2 rVec0) (View.ld x2 rVec1) (View.ld x2 rVec2) (View.ld x2 rVec3) bl i d).trans ?_
  exact outAt_congr _ _ (ld_row0 x2) (ld_row1 x2) (ld_row2 x2) (ld_row3 x2) i d

variable (m : (ℓ : Loc nD τ sig) → Buf (Elt Ideal) ℓ) (ρ : Dev nD → PrngReg)

/-! ## The whole array -/

/-- The result array as one function of the argument arrays. -/
def result (c : Dev nD) : S32x200x100.Idx → EReal :=
  Cert.Spec.G (gathered (m ((c : Thread nD τ).loc main_arg3)) (m ((c : Thread nD τ).loc main_arg0))) (m ((c : Thread nD τ).loc main_arg1))
    (m ((c : Thread nD τ).loc main_arg4)) (m ((c : Thread nD τ).loc main_arg5)) (m ((c : Thread nD τ).loc main_arg6)) (m ((c : Thread nD τ).loc main_arg7))

/-- What point t writes back is block t of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz3]
  funext y
  obtain ⟨bl, i, d, rfl⟩ : ∃ (bl : Fin 4) (i : Fin 200) (d : Fin 100), y = ix3 bl i d := ⟨y 0, y 1, y 2, eq_ix3 y⟩
  show stored (iblk m c 0 t) (iblk m c 1 t) (iblk m c 2 t) (ix3 bl i d) = result m c (((cfg0.win 3).blk t).view.emb (ix3 bl i d))
  rw [out_emb]
  refine (stored_eq (iblk m c 0 t) (iblk m c 1 t) (iblk m c 2 t) bl i d).trans ?_
  have e0 : (fun (j : Fin 200) (d' : Fin 100) => iblk m c 0 t (ix3 bl j d'))
      = fun j d' => gathered (m ((c : Thread nD τ).loc main_arg3)) (m ((c : Thread nD τ).loc main_arg0)) (ix3 (batchOf t bl) j d') :=
    funext fun j => funext fun d' => (rows_blk m c t bl j d').trans (congrFun (V_rows m c) _)
  have e1 : (fun (i' j : Fin 200) => iblk m c 1 t (ix3 bl i' j))
      = fun i' j => (m ((c : Thread nD τ).loc main_arg1) : S32x200x200.Idx → BitVec 32) (ix3 (batchOf t bl) i' j) :=
    funext fun i' => funext fun j => (codes_blk m c t bl i' j).trans (congrFun (V_main_arg1 m c) _)
  have e2 : ∀ (k : Fin 4) (a : S100x1.Idx → EReal), (∀ d', stacked (m ((c : Thread nD τ).loc main_arg4)) (m ((c : Thread nD τ).loc main_arg5))
        (m ((c : Thread nD τ).loc main_arg6)) (m ((c : Thread nD τ).loc main_arg7)) (ix2 k d') = a (ix2 d' (0 : Fin 1))) →
      (fun d' : Fin 100 => iblk m c 2 t (ix2 k d')) = fun d' => a (ix2 d' (0 : Fin 1)) :=
    fun k a h => funext fun d' => ((vecs_blk m c t k d').trans (congrFun (V_vecs m c) _)).trans (h d')
  rw [e0, e1, e2 0 _ (stacked_apply0 _ _ _ _), e2 1 _ (stacked_apply1 _ _ _ _), e2 2 _ (stacked_apply2 _ _ _ _), e2 3 _ (stacked_apply3 _ _ _ _)]
  rfl

/-- An entry of the array is in point t's block iff each coordinate is in the block's range on its axis. -/
theorem mem_blk (t : Fin cfg0.N) (i : S32x200x100.Idx) :
    i ∈ ((cfg0.win 3).blk t).view.set ↔ ∀ a : Fin 3, win0_3.index t a * S4x200x100.size a ≤ (i a).val ∧ (i a).val < win0_3.index t a * S4x200x100.size a + S4x200x100.size a := by
  show i ∈ ((View.whole main_v16).slice (win0_3.rect t)).set ↔ _
  rw [View.set_slice_whole, Rect.mem_set_unit]
  exact Iff.rfl

/-- Every entry lies in the block of the point its batch coordinate names. -/
theorem cover (i : S32x200x100.Idx) : ∃ t : Fin cfg0.N, (cfg0.win 3).flush t = true ∧ i ∈ ((cfg0.win 3).blk t).view.set := by
  have h0 : (i 0).val < 32 := (i 0).isLt
  have h1 : (i 1).val < 200 := (i 1).isLt
  have h2 : (i 2).val < 100 := (i 2).isLt
  refine ⟨⟨(i 0).val / 4, lt_of_lt_of_eq (by omega : (i 0).val / 4 < 8) N_0.symm⟩, flush0_3 _, ?_⟩
  rw [mem_blk]
  obtain ⟨-, -, -, -, -, -, -, -, e0, e1, e2⟩ := idx_facts ⟨(i 0).val / 4, lt_of_lt_of_eq (by omega : (i 0).val / 4 < 8) N_0.symm⟩
  intro a
  match a with
  | ⟨0, _⟩ => show win0_3.index _ (0 : Fin 3) * 4 ≤ (i 0).val ∧ (i 0).val < win0_3.index _ (0 : Fin 3) * 4 + 4; rw [e0]; show (i 0).val / 4 * 4 ≤ (i 0).val ∧ (i 0).val < (i 0).val / 4 * 4 + 4; omega
  | ⟨1, _⟩ => show win0_3.index _ (1 : Fin 3) * 200 ≤ (i 1).val ∧ (i 1).val < win0_3.index _ (1 : Fin 3) * 200 + 200; rw [e1]; omega
  | ⟨2, _⟩ => show win0_3.index _ (2 : Fin 3) * 100 ≤ (i 2).val ∧ (i 2).val < win0_3.index _ (2 : Fin 3) * 100 + 100; rw [e2]; omega

/-- After the run the result array is `result`. -/
theorem final (c : Dev nD) : (dats m 0 c).arrAt 3 cfg0.N = result m c :=
  (dats m 0 c).arrAt_eq_of_cover 3 (result m c) (fun t _ => flushed_eq m c t) cover

/-- The run, read: the result array at `result` of the argument arrays, the arguments unchanged. -/
theorem run : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 3).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.KVal

end
-- ==== Proof.RefStages.lean ====
/-
  The stages of the reference program's result, each a function of arrays of the program's literal shapes: the
  gathered rows; a relation vector spread over the rows; the pair scores under one relation vector; the leaky
  rectifier; the choice of the logit by relation code; the row maxima, the exponentials, their row sums, the
  weights; the weighted average of the rows.  Each is spelt with the operations the program prints, so that the
  program's run composes them and a reading at an index opens them one at a time.
-/
import proofs.«103132_j84241488544091_2_alg».proof.ReferenceIdeal
import proofs.«103132_j84241488544091_2_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## The stages of the result -/

/-- The gathered rows: a negative row number has the table's height added, and row (b, i) of the result is the
    table's row at the number so normalised. -/
def gathered (emb : FVec F S50000x100 .f32) (inputs : IVec S32x200 32) : FVec F S32x200x100 .f32 :=
  Host.gather gather_S50000x100_S32x200x1_S32x200x100_2_0_n_n_0_2_1100 emb
    (broadcastInDim S32x200x1 ![0, 1] bcast_S32x200_S32x200x1_0_1
      (select (cmpi .slt inputs (broadcastInDim S32x200 ![] bcast_S_S32x200 (constantI S_ 32 0#32)))
        (addi inputs (broadcastInDim S32x200 ![] bcast_S_S32x200 (constantI S_ 32 50000#32))) inputs))

/-- A relation vector, given as a [100, 1] column, spread over every row of every batch element. -/
def spread (a : FVec F S100x1 .f32) : FVec F S32x200x100 .f32 :=
  broadcastInDim S32x200x100 ![0, 1, 2] bcast_S1x1x100_S32x200x100_0_1_2
    (broadcastInDim S1x1x100 ![2] bcast_S100_S1x1x100_2 (fun i => shapeCast S100 a shapeCasts_S100x1_S100 i))

/-- The pair scores under one relation vector: entry (b, i, j) contracts row i scaled by the vector with row j. -/
def scores (h : FVec F S32x200x100 .f32) (a : FVec F S100x1 .f32) : FVec F S32x200x200 .f32 :=
  Host.dotGeneral dot_S32x200x100_S32x200x100_S32x200x200_2_2_1_1_0_0 none (mulf h (spread a)) h

/-- The leaky rectifier, entry by entry: the score where it is at least zero, the slope times the score elsewhere. -/
def rectified (s : FVec F S32x200x200 .f32) : FVec F S32x200x200 .f32 :=
  select (cmpf .oge s (broadcastInDim S32x200x200 ![] bcast_S_S32x200x200 (constant S_ .f32 0x00000000#32))) s
    (mulf (broadcastInDim S32x200x200 ![] bcast_S_S32x200x200 (constant S_ .f32 0x3E4CCCCD#32)) s)

/-- The logits: relation code 4 takes the fourth rectified score, else 3 the third, else 2 the second, else 1 the
    first, else the large negative fill. -/
def logits (adj : IVec S32x200x200 32) (e0 e1 e2 e3 : FVec F S32x200x200 .f32) : FVec F S32x200x200 .f32 :=
  select (cmpi .eq adj (broadcastInDim S32x200x200 ![] bcast_S_S32x200x200 (constantI S_ 32 4#32))) e3
    (select (cmpi .eq adj (broadcastInDim S32x200x200 ![] bcast_S_S32x200x200 (constantI S_ 32 3#32))) e2
      (select (cmpi .eq adj (broadcastInDim S32x200x200 ![] bcast_S_S32x200x200 (constantI S_ 32 2#32))) e1
        (select (cmpi .eq adj (broadcastInDim S32x200x200 ![] bcast_S_S32x200x200 (constantI S_ 32 1#32))) e0
          (broadcastInDim S32x200x200 ![] bcast_S_S32x200x200 (constant S_ .f32 0xD9FFCB9E#32)))))

/-- A [32, 200] array of row values repeated along a new last axis of length 200. -/
def alongRow (x : FVec F S32x200 .f32) : FVec F S32x200x200 .f32 :=
  broadcastInDim S32x200x200 ![0, 1, 2] bcast_S32x200x1_S32x200x200_0_1_2
    (broadcastInDim S32x200x1 ![0, 1] bcast_S32x200_S32x200x1_0_1 x)

/-- The row maxima: the maximum over the last axis folded from -∞, joined with -∞ once more. -/
def rowMaxima (x : FVec F S32x200x200 .f32) : FVec F S32x200 .f32 :=
  maximumf (broadcastInDim S32x200 ![] bcast_S_S32x200 (constant S_ .f32 0xFF800000#32))
    (Host.reduce FloatOps.maximumf x (constant S_ .f32 0xFF800000#32) reducesTo_S32x200x200_S32x200_d2 h_S_)

/-- The exponentials of the logits less their row's maximum. -/
def exps (x : FVec F S32x200x200 .f32) : FVec F S32x200x200 .f32 :=
  Host.exp (subf x (alongRow (rowMaxima x)))

/-- The row sums of an array, from zero. -/
def rowSums (e : FVec F S32x200x200 .f32) : FVec F S32x200 .f32 :=
  Host.reduceAdd e (constant S_ .f32 0x00000000#32) reducesTo_S32x200x200_S32x200_d2 h_S_

/-- The softmax weights of the logits along the last axis. -/
def weights (x : FVec F S32x200x200 .f32) : FVec F S32x200x200 .f32 :=
  Host.divf (exps x) (alongRow (rowSums (exps x)))

/-- The result from the gathered rows: the rows of each batch element averaged with the weights of the logits. -/
def resultOf (h : FVec F S32x200x100 .f32) (adj : IVec S32x200x200 32) (a0 a1 a2 a3 : FVec F S100x1 .f32) :
    FVec F S32x200x100 .f32 :=
  Host.dotGeneral dot_S32x200x200_S32x200x100_S32x200x100_2_1_1_2_0_0 none
    (weights (logits adj (rectified (scores h a0)) (rectified (scores h a1)) (rectified (scores h a2))
      (rectified (scores h a3)))) h

end Cert.ReferenceIdeal.RefRun

end
-- ==== Proof.RefRun.lean ====
/-
  The reference program's run.  Its @main is a straight line of host operations once the three outlined functions
  (the leaky rectifier, and the two selects it and @main call) are put back at their call sites: ninety-four
  operations, listed below in program order.  Every weakly fair execution terminates with the result buffer at the
  composed stages of the argument arrays, and the arguments unchanged.
-/
import proofs.«103132_j84241488544091_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result buffer's final contents on device `c`, of the launch contents `m` of the argument buffers. -/
def res (m : (ℓ : Loc nD τ sig) → Buf (Elt F) ℓ) (c : Dev nD) : FVec F S32x200x100 .f32 :=
  resultOf (gathered (m ((c.tc : Thread nD τ).loc main_arg3)) (m ((c.tc : Thread nD τ).loc main_arg0)))
    (m ((c.tc : Thread nD τ).loc main_arg1)) (m ((c.tc : Thread nD τ).loc main_arg4))
    (m ((c.tc : Thread nD τ).loc main_arg5)) (m ((c.tc : Thread nD τ).loc main_arg6))
    (m ((c.tc : Thread nD τ).loc main_arg7))

/-! ## The operations -/

/-- @main's operations in order, the calls put back: each call of the leaky rectifier is seven (the zero, its
    broadcast, the comparison, the slope converted to its own type, its broadcast, the product, the select that the
    rectifier itself calls), the select against the scalar fill is two (the fill's broadcast, the select), each
    other select is one. -/
abbrev ops : List (HloOp τ sig (Elt F)) :=
  [ nullary main_cst (constant S_ .f32 0xD9FFCB9E#32),
    nullary main_c (constantI S_ 32 0#32),
    unary main_c main_v0 (broadcastInDim S32x200 ![] bcast_S_S32x200 : (⟨S_, .i32⟩ : BufTy).Contents (Elt F) → (⟨S32x200, .i32⟩ : BufTy).Contents (Elt F)),
    binary main_arg0 main_v0 main_v1 (cmpi .slt : (⟨S32x200, .i32⟩ : BufTy).Contents (Elt F) → (⟨S32x200, .i32⟩ : BufTy).Contents (Elt F) → (⟨S32x200, .i1⟩ : BufTy).Contents (Elt F)),
    nullary main_c_0 (constantI S_ 32 50000#32),
    unary main_c_0 main_v2 (broadcastInDim S32x200 ![] bcast_S_S32x200 : (⟨S_, .i32⟩ : BufTy).Contents (Elt F) → (⟨S32x200, .i32⟩ : BufTy).Contents (Elt F)),
    binary main_arg0 main_v2 main_v3 (addi : (⟨S32x200, .i32⟩ : BufTy).Contents (Elt F) → (⟨S32x200, .i32⟩ : BufTy).Contents (Elt F) → (⟨S32x200, .i32⟩ : BufTy).Contents (Elt F)),
    ternary main_v1 main_v3 main_arg0 main_v4 (select : (⟨S32x200, .i1⟩ : BufTy).Contents (Elt F) → (⟨S32x200, .i32⟩ : BufTy).Contents (Elt F) → (⟨S32x200, .i32⟩ : BufTy).Contents (Elt F) → (⟨S32x200, .i32⟩ : BufTy).Contents (Elt F)),
    unary main_v4 main_v5 (broadcastInDim S32x200x1 ![0, 1] bcast_S32x200_S32x200x1_0_1 : (⟨S32x200, .i32⟩ : BufTy).Contents (Elt F) → (⟨S32x200x1, .i32⟩ : BufTy).Contents (Elt F)),
    binary main_arg3 main_v5 main_v6 ((fun x i => Host.gather gather_S50000x100_S32x200x1_S32x200x100_2_0_n_n_0_2_1100 x i) : (⟨S50000x100, .f32⟩ : BufTy).Contents (Elt F) → (⟨S32x200x1, .i32⟩ : BufTy).Contents (Elt F) → (⟨S32x200x100, .f32⟩ : BufTy).Contents (Elt F)),
    reshape main_arg4 main_v7 rfl shapeCasts_S100x1_S100,
    unary main_v7 main_v8 (broadcastInDim S1x1x100 ![2] bcast_S100_S1x1x100_2 : (⟨S100, .f32⟩ : BufTy).Contents (Elt F) → (⟨S1x1x100, .f32⟩ : BufTy).Contents (Elt F)),
    unary main_v8 main_v9 (broadcastInDim S32x200x100 ![0, 1, 2] bcast_S1x1x100_S32x200x100_0_1_2 : (⟨S1x1x100, .f32⟩ : BufTy).Contents (Elt F) → (⟨S32x200x100, .f32⟩ : BufTy).Contents (Elt F)),
    binary main_v6 main_v9 main_v10 (mulf : (⟨S32x200x100, .f32⟩ : BufTy).Contents (Elt F) → (⟨S32x200x100, .f32⟩ : BufTy).Contents (Elt F) → (⟨S32x200x100, .f32⟩ : BufTy).Contents (Elt F)),
    binary main_v10 main_v6 main_v11 ((fun l r => Host.dotGeneral dot_S32x200x100_S32x200x100_S32x200x200_2_2_1_1_0_0 none l r) : (⟨S32x200x100, .f32⟩ : BufTy).Contents (Elt F) → (⟨S32x200x100, .f32⟩ : BufTy).Contents (Elt F) → (⟨S32x200x200, .f32⟩ : BufTy).Contents (Elt F)),
    nullary main_cst_1 (constant S_ .f32 0x3E4CCCCD#32),
    nullary main_call0_cst (constant S_ .f32 0x00000000#32),
    unary main_call0_cst main_call0_v0 (broadcastInDim S32x200x200 ![] bcast_S_S32x200x200 : (⟨S_, .f32⟩ : BufTy).Contents (Elt F) → (⟨S32x200x200, .f32⟩ : BufTy).Contents (Elt F)),
    binary main_v11 main_call0_v0 main_call0_v1 (cmpf .oge : (⟨S32x200x200, .f32⟩ : BufTy).Contents (Elt F) → (⟨S32x200x200, .f32⟩ : BufTy).Contents (Elt F) → (⟨S32x200x200, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S32x200x200 ![] bcast_S_S32x200x200 : (⟨S_, .f32⟩ : BufTy).Contents (Elt F) → (⟨S32x200x200, .f32⟩ : BufTy).Contents (Elt F)),
    binary main_call0_v3 main_v11 main_call0_v4 (mulf : (⟨S32x200x200, .f32⟩ : BufTy).Contents (Elt F) → (⟨S32x200x200, .f32⟩ : BufTy).Contents (Elt F) → (⟨S32x200x200, .f32⟩ : BufTy).Contents (Elt F)),
    ternary main_call0_v1 main_v11 main_call0_v4 main_v12 (select : (⟨S32x200x200, .i1⟩ : BufTy).Contents (Elt F) → (⟨S32x200x200, .f32⟩ : BufTy).Contents (Elt F) → (⟨S32x200x200, .f32⟩ : BufTy).Contents (Elt F) → (⟨S32x200x200, .f32⟩ : BufTy).Contents (Elt F)),
    reshape main_arg5 main_v13 rfl shapeCasts_S100x1_S100,
    unary main_v13 main_v14 (broadcastInDim S1x1x100 ![2] bcast_S100_S1x1x100_2 : (⟨S100, .f32⟩ : BufTy).Contents (Elt F) → (⟨S1x1x100, .f32⟩ : BufTy).Contents (Elt F)),
    unary main_v14 main_v15 (broadcastInDim S32x200x100 ![0, 1, 2] bcast_S1x1x100_S32x200x100_0_1_2 : (⟨S1x1x100, .f32⟩ : BufTy).Contents (Elt F) → (⟨S32x200x100, .f32⟩ : BufTy).Contents (Elt F)),
    binary main_v6 main_v15 main_v16 (mulf : (⟨S32x200x100, .f32⟩ : BufTy).Contents (Elt F) → (⟨S32x200x100, .f32⟩ : BufTy).Contents (Elt F) → (⟨S32x200x100, .f32⟩ : BufTy).Contents (Elt F)),
    binary main_v16 main_v6 main_v17 ((fun l r => Host.dotGeneral dot_S32x200x100_S32x200x100_S32x200x200_2_2_1_1_0_0 none l r) : (⟨S32x200x100, .f32⟩ : BufTy).Contents (Elt F) → (⟨S32x200x100, .f32⟩ : BufTy).Contents (Elt F) → (⟨S32x200x200, .f32⟩ : BufTy).Contents (Elt F)),
    nullary main_cst_2 (constant S_ .f32 0x3E4CCCCD#32),
    nullary main_call1_cst (constant S_ .f32 0x00000000#32),
    unary main_call1_cst main_call1_v0 (broadcastInDim S32x200x200 ![] bcast_S_S32x200x200 : (⟨S_, .f32⟩ : BufTy).Contents (Elt F) → (⟨S32x200x200, .f32⟩ : BufTy).Contents (Elt F)),
    binary main_v17 main_call1_v0 main_call1_v1 (cmpf .oge : (⟨S32x200x200, .f32⟩ : BufTy).Contents (Elt F) → (⟨S32x200x200, .f32⟩ : BufTy).Contents (Elt F) → (⟨S32x200x200, .i1⟩ : BufTy).Contents (Elt F)),
    unary main_cst_2 main_call1_v2 (id : (⟨S_, .f32⟩ : BufTy).Contents (Elt F) → (⟨S_, .f32⟩ : BufTy).Contents (Elt F)),
    unary main_call1_v2 main_call1_v3 (broadcastInDim S32x200x200 ![] bcast_S_S32x200x200 : (⟨S_, .f32⟩ : BufTy).Contents (Elt F) → (⟨S32x200x200, .f32⟩ : BufTy).Contents (Elt F)),
    binary main_call1_v3 main_v17 main_call1_v4 (mulf : (⟨S32x200x200, .f32⟩ : BufTy).Contents (Elt F) → (⟨S32x200x200, .f32⟩ : BufTy).Contents (Elt F) → (⟨S32x200x200, .f32⟩ : BufTy).Contents (Elt F)),
    ternary main_call1_v1 main_v17 main_call1_v4 main_v18 (select : (⟨S32x200x200, .i1⟩ : BufTy).Contents (Elt F) → (⟨S32x200x200, .f32⟩ : BufTy).Contents (Elt F) → (⟨S32x200x200, .f32⟩ : BufTy).Contents (Elt F) → (⟨S32x200x200, .f32⟩ : BufTy).Contents (Elt F)),
    reshape main_arg6 main_v19 rfl shapeCasts_S100x1_S100,
    unary main_v19 main_v20 (broadcastInDim S1x1x100 ![2] bcast_S100_S1x1x100_2 : (⟨S100, .f32⟩ : BufTy).Contents (Elt F) → (⟨S1x1x100, .f32⟩ : BufTy).Contents (Elt F)),
    unary main_v20 main_v21 (broadcastInDim S32x200x100 ![0, 1, 2] bcast_S1x1x100_S32x200x100_0_1_2 : (⟨S1x1x100, .f32⟩ : BufTy).Contents (Elt F) → (⟨S32x200x100, .f32⟩ : BufTy).Contents (Elt F)),
    binary main_v6 main_v21 main_v22 (mulf : (⟨S32x200x100, .f32⟩ : BufTy).Contents (Elt F) → (⟨S32x200x100, .f32⟩ : BufTy).Contents (Elt F) → (⟨S32x200x100, .f32⟩ : BufTy).Contents (Elt F)),
    binary main_v22 main_v6 main_v23 ((fun l r => Host.dotGeneral dot_S32x200x100_S32x200x100_S32x200x200_2_2_1_1_0_0 none l r) : (⟨S32x200x100, .f32⟩ : BufTy).Contents (Elt F) → (⟨S32x200x100, .f32⟩ : BufTy).Contents (Elt F) → (⟨S32x200x200, .f32⟩ : BufTy).Contents (Elt F)),
    nullary main_cst_3 (constant S_ .f32 0x3E4CCCCD#32),
    nullary main_call2_cst (constant S_ .f32 0x00000000#32),
    unary main_call2_cst main_call2_v0 (broadcastInDim S32x200x200 ![] bcast_S_S32x200x200 : (⟨S_, .f32⟩ : BufTy).Contents (Elt F) → (⟨S32x200x200, .f32⟩ : BufTy).Contents (Elt F)),
    binary main_v23 main_call2_v0 main_call2_v1 (cmpf .oge : (⟨S32x200x200, .f32⟩ : BufTy).Contents (Elt F) → (⟨S32x200x200, .f32⟩ : BufTy).Contents (Elt F) → (⟨S32x200x200, .i1⟩ : BufTy).Contents (Elt F)),
    unary main_cst_3 main_call2_v2 (id : (⟨S_, .f32⟩ : BufTy).Contents (Elt F) → (⟨S_, .f32⟩ : BufTy).Contents (Elt F)),
    unary main_call2_v2 main_call2_v3 (broadcastInDim S32x200x200 ![] bcast_S_S32x200x200 : (⟨S_, .f32⟩ : BufTy).Contents (Elt F) → (⟨S32x200x200, .f32⟩ : BufTy).Contents (Elt F)),
    binary main_call2_v3 main_v23 main_call2_v4 (mulf : (⟨S32x200x200, .f32⟩ : BufTy).Contents (Elt F) → (⟨S32x200x200, .f32⟩ : BufTy).Contents (Elt F) → (⟨S32x200x200, .f32⟩ : BufTy).Contents (Elt F)),
    ternary main_call2_v1 main_v23 main_call2_v4 main_v24 (select : (⟨S32x200x200, .i1⟩ : BufTy).Contents (Elt F) → (⟨S32x200x200, .f32⟩ : BufTy).Contents (Elt F) → (⟨S32x200x200, .f32⟩ : BufTy).Contents (Elt F) → (⟨S32x200x200, .f32⟩ : BufTy).Contents (Elt F)),
    reshape main_arg7 main_v25 rfl shapeCasts_S100x1_S100,
    unary main_v25 main_v26 (broadcastInDim S1x1x100 ![2] bcast_S100_S1x1x100_2 : (⟨S100, .f32⟩ : BufTy).Contents (Elt F) → (⟨S1x1x100, .f32⟩ : BufTy).Contents (Elt F)),
    unary main_v26 main_v27 (broadcastInDim S32x200x100 ![0, 1, 2] bcast_S1x1x100_S32x200x100_0_1_2 : (⟨S1x1x100, .f32⟩ : BufTy).Contents (Elt F) → (⟨S32x200x100, .f32⟩ : BufTy).Contents (Elt F)),
    binary main_v6 main_v27 main_v28 (mulf : (⟨S32x200x100, .f32⟩ : BufTy).Contents (Elt F) → (⟨S32x200x100, .f32⟩ : BufTy).Contents (Elt F) → (⟨S32x200x100, .f32⟩ : BufTy).Contents (Elt F)),
    binary main_v28 main_v6 main_v29 ((fun l r => Host.dotGeneral dot_S32x200x100_S32x200x100_S32x200x200_2_2_1_1_0_0 none l r) : (⟨S32x200x100, .f32⟩ : BufTy).Contents (Elt F) → (⟨S32x200x100, .f32⟩ : BufTy).Contents (Elt F) → (⟨S32x200x200, .f32⟩ : BufTy).Contents (Elt F)),
    nullary main_cst_4 (constant S_ .f32 0x3E4CCCCD#32),
    nullary main_call3_cst (constant S_ .f32 0x00000000#32),
    unary main_call3_cst main_call3_v0 (broadcastInDim S32x200x200 ![] bcast_S_S32x200x200 : (⟨S_, .f32⟩ : BufTy).Contents (Elt F) → (⟨S32x200x200, .f32⟩ : BufTy).Contents (Elt F)),
    binary main_v29 main_call3_v0 main_call3_v1 (cmpf .oge : (⟨S32x200x200, .f32⟩ : BufTy).Contents (Elt F) → (⟨S32x200x200, .f32⟩ : BufTy).Contents (Elt F) → (⟨S32x200x200, .i1⟩ : BufTy).Contents (Elt F)),
    unary main_cst_4 main_call3_v2 (id : (⟨S_, .f32⟩ : BufTy).Contents (Elt F) → (⟨S_, .f32⟩ : BufTy).Contents (Elt F)),
    unary main_call3_v2 main_call3_v3 (broadcastInDim S32x200x200 ![] bcast_S_S32x200x200 : (⟨S_, .f32⟩ : BufTy).Contents (Elt F) → (⟨S32x200x200, .f32⟩ : BufTy).Contents (Elt F)),
    binary main_call3_v3 main_v29 main_call3_v4 (mulf : (⟨S32x200x200, .f32⟩ : BufTy).Contents (Elt F) → (⟨S32x200x200, .f32⟩ : BufTy).Contents (Elt F) → (⟨S32x200x200, .f32⟩ : BufTy).Contents (Elt F)),
    ternary main_call3_v1 main_v29 main_call3_v4 main_v30 (select : (⟨S32x200x200, .i1⟩ : BufTy).Contents (Elt F) → (⟨S32x200x200, .f32⟩ : BufTy).Contents (Elt F) → (⟨S32x200x200, .f32⟩ : BufTy).Contents (Elt F) → (⟨S32x200x200, .f32⟩ : BufTy).Contents (Elt F)),
    nullary main_c_5 (constantI S_ 32 1#32),
    unary main_c_5 main_v31 (broadcastInDim S32x200x200 ![] bcast_S_S32x200x200 : (⟨S_, .i32⟩ : BufTy).Contents (Elt F) → (⟨S32x200x200, .i32⟩ : BufTy).Contents (Elt F)),
    binary main_arg1 main_v31 main_v32 (cmpi .eq : (⟨S32x200x200, .i32⟩ : BufTy).Contents (Elt F) → (⟨S32x200x200, .i32⟩ : BufTy).Contents (Elt F) → (⟨S32x200x200, .i1⟩ : BufTy).Contents (Elt F)),
    unary main_cst main_call4_v0 (broadcastInDim S32x200x200 ![] bcast_S_S32x200x200 : (⟨S_, .f32⟩ : BufTy).Contents (Elt F) → (⟨S32x200x200, .f32⟩ : BufTy).Contents (Elt F)),
    ternary main_v32 main_v12 main_call4_v0 main_v33 (select : (⟨S32x200x200, .i1⟩ : BufTy).Contents (Elt F) → (⟨S32x200x200, .f32⟩ : BufTy).Contents (Elt F) → (⟨S32x200x200, .f32⟩ : BufTy).Contents (Elt F) → (⟨S32x200x200, .f32⟩ : BufTy).Contents (Elt F)),
    nullary main_c_6 (constantI S_ 32 2#32),
    unary main_c_6 main_v34 (broadcastInDim S32x200x200 ![] bcast_S_S32x200x200 : (⟨S_, .i32⟩ : BufTy).Contents (Elt F) → (⟨S32x200x200, .i32⟩ : BufTy).Contents (Elt F)),
    binary main_arg1 main_v34 main_v35 (cmpi .eq : (⟨S32x200x200, .i32⟩ : BufTy).Contents (Elt F) → (⟨S32x200x200, .i32⟩ : BufTy).Contents (Elt F) → (⟨S32x200x200, .i1⟩ : BufTy).Contents (Elt F)),
    ternary main_v35 main_v18 main_v33 main_v36 (select : (⟨S32x200x200, .i1⟩ : BufTy).Contents (Elt F) → (⟨S32x200x200, .f32⟩ : BufTy).Contents (Elt F) → (⟨S32x200x200, .f32⟩ : BufTy).Contents (Elt F) → (⟨S32x200x200, .f32⟩ : BufTy).Contents (Elt F)),
    nullary main_c_7 (constantI S_ 32 3#32),
    unary main_c_7 main_v37 (broadcastInDim S32x200x200 ![] bcast_S_S32x200x200 : (⟨S_, .i32⟩ : BufTy).Contents (Elt F) → (⟨S32x200x200, .i32⟩ : BufTy).Contents (Elt F)),
    binary main_arg1 main_v37 main_v38 (cmpi .eq : (⟨S32x200x200, .i32⟩ : BufTy).Contents (Elt F) → (⟨S32x200x200, .i32⟩ : BufTy).Contents (Elt F) → (⟨S32x200x200, .i1⟩ : BufTy).Contents (Elt F)),
    ternary main_v38 main_v24 main_v36 main_v39 (select : (⟨S32x200x200, .i1⟩ : BufTy).Contents (Elt F) → (⟨S32x200x200, .f32⟩ : BufTy).Contents (Elt F) → (⟨S32x200x200, .f32⟩ : BufTy).Contents (Elt F) → (⟨S32x200x200, .f32⟩ : BufTy).Contents (Elt F)),
    nullary main_c_8 (constantI S_ 32 4#32),
    unary main_c_8 main_v40 (broadcastInDim S32x200x200 ![] bcast_S_S32x200x200 : (⟨S_, .i32⟩ : BufTy).Contents (Elt F) → (⟨S32x200x200, .i32⟩ : BufTy).Contents (Elt F)),
    binary main_arg1 main_v40 main_v41 (cmpi .eq : (⟨S32x200x200, .i32⟩ : BufTy).Contents (Elt F) → (⟨S32x200x200, .i32⟩ : BufTy).Contents (Elt F) → (⟨S32x200x200, .i1⟩ : BufTy).Contents (Elt F)),
    ternary main_v41 main_v30 main_v39 main_v42 (select : (⟨S32x200x200, .i1⟩ : BufTy).Contents (Elt F) → (⟨S32x200x200, .f32⟩ : BufTy).Contents (Elt F) → (⟨S32x200x200, .f32⟩ : BufTy).Contents (Elt F) → (⟨S32x200x200, .f32⟩ : BufTy).Contents (Elt F)),
    nullary main_cst_9 (constant S_ .f32 0xFF800000#32),
    binary main_v42 main_cst_9 main_v43 ((fun x v => Host.reduce FloatOps.maximumf x v reducesTo_S32x200x200_S32x200_d2 h_S_) : (⟨S32x200x200, .f32⟩ : BufTy).Contents (Elt F) → (⟨S_, .f32⟩ : BufTy).Contents (Elt F) → (⟨S32x200, .f32⟩ : BufTy).Contents (Elt F)),
    nullary main_cst_10 (constant S_ .f32 0xFF800000#32),
    unary main_cst_10 main_v44 (broadcastInDim S32x200 ![] bcast_S_S32x200 : (⟨S_, .f32⟩ : BufTy).Contents (Elt F) → (⟨S32x200, .f32⟩ : BufTy).Contents (Elt F)),
    binary main_v44 main_v43 main_v45 (maximumf : (⟨S32x200, .f32⟩ : BufTy).Contents (Elt F) → (⟨S32x200, .f32⟩ : BufTy).Contents (Elt F) → (⟨S32x200, .f32⟩ : BufTy).Contents (Elt F)),
    unary main_v45 main_v46 (broadcastInDim S32x200x1 ![0, 1] bcast_S32x200_S32x200x1_0_1 : (⟨S32x200, .f32⟩ : BufTy).Contents (Elt F) → (⟨S32x200x1, .f32⟩ : BufTy).Contents (Elt F)),
    unary main_v46 main_v47 (broadcastInDim S32x200x200 ![0, 1, 2] bcast_S32x200x1_S32x200x200_0_1_2 : (⟨S32x200x1, .f32⟩ : BufTy).Contents (Elt F) → (⟨S32x200x200, .f32⟩ : BufTy).Contents (Elt F)),
    binary main_v42 main_v47 main_v48 (subf : (⟨S32x200x200, .f32⟩ : BufTy).Contents (Elt F) → (⟨S32x200x200, .f32⟩ : BufTy).Contents (Elt F) → (⟨S32x200x200, .f32⟩ : BufTy).Contents (Elt F)),
    unary main_v48 main_v49 (Host.exp : (⟨S32x200x200, .f32⟩ : BufTy).Contents (Elt F) → (⟨S32x200x200, .f32⟩ : BufTy).Contents (Elt F)),
    nullary main_cst_11 (constant S_ .f32 0x00000000#32),
    binary main_v49 main_cst_11 main_v50 ((fun x v => Host.reduceAdd x v reducesTo_S32x200x200_S32x200_d2 h_S_) : (⟨S32x200x200, .f32⟩ : BufTy).Contents (Elt F) → (⟨S_, .f32⟩ : BufTy).Contents (Elt F) → (⟨S32x200, .f32⟩ : BufTy).Contents (Elt F)),
    unary main_v50 main_v51 (broadcastInDim S32x200x1 ![0, 1] bcast_S32x200_S32x200x1_0_1 : (⟨S32x200, .f32⟩ : BufTy).Contents (Elt F) → (⟨S32x200x1, .f32⟩ : BufTy).Contents (Elt F)),
    unary main_v51 main_v52 (broadcastInDim S32x200x200 ![0, 1, 2] bcast_S32x200x1_S32x200x200_0_1_2 : (⟨S32x200x1, .f32⟩ : BufTy).Contents (Elt F) → (⟨S32x200x200, .f32⟩ : BufTy).Contents (Elt F)),
    binary main_v49 main_v52 main_v53 (Host.divf : (⟨S32x200x200, .f32⟩ : BufTy).Contents (Elt F) → (⟨S32x200x200, .f32⟩ : BufTy).Contents (Elt F) → (⟨S32x200x200, .f32⟩ : BufTy).Contents (Elt F)),
    binary main_v53 main_v6 main_v54 ((fun l r => Host.dotGeneral dot_S32x200x200_S32x200x100_S32x200x100_2_1_1_2_0_0 none l r) : (⟨S32x200x200, .f32⟩ : BufTy).Contents (Elt F) → (⟨S32x200x100, .f32⟩ : BufTy).Contents (Elt F) → (⟨S32x200x100, .f32⟩ : BufTy).Contents (Elt F)) ]

set_option maxRecDepth 8192 in
set_option maxHeartbeats 4000000 in
/-- @main is that straight line: the functions' definitions unfolded at their calls, both sides are one chain of
    steps once sequencing is reassociated. -/
theorem main_eq (c : Dev nD) : main (F := F) c = seq ops := by
  simp only [main, main_part0, main_part1, fn_leaky_relu.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., unary_bufs_sub ..,
    unary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., reshape_bufs_sub ..,
    unary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    reshape_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub .., reshape_bufs_sub .., unary_bufs_sub .., unary_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub .., nullary_bufs_sub .., unary_bufs_sub .., binary_bufs_sub .., unary_bufs_sub ..,
    ternary_bufs_sub .., nullary_bufs_sub .., unary_bufs_sub .., binary_bufs_sub .., ternary_bufs_sub .., nullary_bufs_sub ..,
    unary_bufs_sub .., binary_bufs_sub .., ternary_bufs_sub .., nullary_bufs_sub .., unary_bufs_sub .., binary_bufs_sub ..,
    ternary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub ..⟩

/-- Every TensorCore buffer ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.gather in
set_option maxHeartbeats 8000000 in
/-- The fold at the result buffer is the composed term. -/
theorem after_v54 (V : Valuation τ sig (Elt F)) :
    after ops V (main_v54 : DevRef τ sig)
      = resultOf (gathered (V (main_arg3 : DevRef τ sig)) (V (main_arg0 : DevRef τ sig))) (V (main_arg1 : DevRef τ sig))
          (V (main_arg4 : DevRef τ sig)) (V (main_arg5 : DevRef τ sig)) (V (main_arg6 : DevRef τ sig)) (V (main_arg7 : DevRef τ sig)) := by
  after_results_simp
  rfl

set_option maxHeartbeats 2000000 in
theorem after_arg0 (V : Valuation τ sig (Elt F)) : after ops V (main_arg0 : DevRef τ sig) = V (main_arg0 : DevRef τ sig) := by
  after_results_simp
set_option maxHeartbeats 2000000 in
theorem after_arg1 (V : Valuation τ sig (Elt F)) : after ops V (main_arg1 : DevRef τ sig) = V (main_arg1 : DevRef τ sig) := by
  after_results_simp
set_option maxHeartbeats 2000000 in
theorem after_arg2 (V : Valuation τ sig (Elt F)) : after ops V (main_arg2 : DevRef τ sig) = V (main_arg2 : DevRef τ sig) := by
  after_results_simp
set_option maxHeartbeats 2000000 in
theorem after_arg3 (V : Valuation τ sig (Elt F)) : after ops V (main_arg3 : DevRef τ sig) = V (main_arg3 : DevRef τ sig) := by
  after_results_simp
set_option maxHeartbeats 2000000 in
theorem after_arg4 (V : Valuation τ sig (Elt F)) : after ops V (main_arg4 : DevRef τ sig) = V (main_arg4 : DevRef τ sig) := by
  after_results_simp
set_option maxHeartbeats 2000000 in
theorem after_arg5 (V : Valuation τ sig (Elt F)) : after ops V (main_arg5 : DevRef τ sig) = V (main_arg5 : DevRef τ sig) := by
  after_results_simp
set_option maxHeartbeats 2000000 in
theorem after_arg6 (V : Valuation τ sig (Elt F)) : after ops V (main_arg6 : DevRef τ sig) = V (main_arg6 : DevRef τ sig) := by
  after_results_simp
set_option maxHeartbeats 2000000 in
theorem after_arg7 (V : Valuation τ sig (Elt F)) : after ops V (main_arg7 : DevRef τ sig) = V (main_arg7 : DevRef τ sig) := by
  after_results_simp

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v54).trans (after_v54 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _)⟩)
    (run_all m ρ)

end Cert.ReferenceIdeal.RefRun

end
-- ==== Proof.RefPoint.lean ====
/-
  The reference's result read at an index.  Each stage of the result, at explicit coordinates, is the matching
  piece of the specification: a relation vector spread over the rows reads its own entry; a contraction of two row
  arrays over their last axis is a sum over the hundred entries; the rectifier, the choice of the logit and the
  softmax's pointwise steps are read entry by entry; the row maximum is a fold of max over the row's two hundred
  entries, the row sum a sum over them; the last contraction is a sum over the two hundred rows.
-/
import proofs.«103132_j84241488544091_2_alg».proof.Proof.RefStages
import proofs.«103132_j84241488544091_2_alg».proof.Proof.Spec
import Idealize.ShloMosaic.Lib.StackMember
import Idealize.ShloMosaic.Lib.Pipeline.Value
import Idealize.ShloMosaic.Lib.IdealHost
import Idealize.ShloMosaic.PureOps.Ideal.Laws

noncomputable section

namespace Cert.ReferenceIdeal.RefPoint

open Cert.ReferenceIdeal Cert.ReferenceIdeal.Gen Cert.ReferenceIdeal.RefRun Idealize.ShloMosaic Idealize.ShloMosaic.ValueIdx

/-! ## Layout stages -/

/-- A relation vector spread over the rows reads, at (b, i, d), its entry d. -/
theorem spread_apply (a : FVec Ideal S100x1 .f32) (b : Fin 32) (i : Fin 200) (d : Fin 100) :
    spread a (ix3 b i d) = a (ix2 d (0 : Fin 1)) := by
  unfold spread
  refine (broadcastInDim_apply ![0, 1, 2] bcast_S1x1x100_S32x200x100_0_1_2 _ (ix3 b i d) (ix3 (0 : Fin 1) (0 : Fin 1) d) (by
    intro ax
    match ax with
    | ⟨0, _⟩ => rfl
    | ⟨1, _⟩ => rfl
    | ⟨2, _⟩ => rfl)).trans ?_
  refine (broadcastInDim_apply ![2] bcast_S100_S1x1x100_2 _ (ix3 (0 : Fin 1) (0 : Fin 1) d) (ix1 d) (by
    intro ax
    match ax with
    | ⟨0, _⟩ => rfl)).trans ?_
  exact shapeCast_apply a shapeCasts_S100x1_S100 (ix1 d) (ix2 d (0 : Fin 1)) (by
    rw [Shape.rowMajor_val_two, Shape.rowMajor_val_one]; show d.val * 1 + 0 = d.val; omega)

/-- Row values repeated along a new last axis read, at (b, i, j), the value of row (b, i). -/
theorem alongRow_apply (x : FVec Ideal S32x200 .f32) (b : Fin 32) (i : Fin 200) (j : Fin 200) :
    alongRow x (ix3 b i j) = x (ix2 b i) := by
  unfold alongRow
  refine (broadcastInDim_apply ![0, 1, 2] bcast_S32x200x1_S32x200x200_0_1_2 _ (ix3 b i j) (ix3 b i (0 : Fin 1)) (by
    intro ax
    match ax with
    | ⟨0, _⟩ => rfl
    | ⟨1, _⟩ => rfl
    | ⟨2, _⟩ => rfl)).trans ?_
  exact broadcastInDim_apply ![0, 1] bcast_S32x200_S32x200x1_0_1 x (ix3 b i (0 : Fin 1)) (ix2 b i) (by
    intro ax
    match ax with
    | ⟨0, _⟩ => rfl
    | ⟨1, _⟩ => rfl)

/-! ## The two contractions -/

/-- Two stacks of row arrays contracted over their last axis, batch axis with batch axis: entry (g, a, b) is the
    sum over the contracted coordinate of the products of row a of the first with row b of the second. -/
theorem dotGeneral_rows_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The pair scores at (b, i, j): the sum over d of (row i's entry d times the vector's entry d) times row j's. -/
theorem scores_apply (h : FVec Ideal S32x200x100 .f32) (a : FVec Ideal S100x1 .f32) (b : Fin 32) (i j : Fin 200) :
    scores h a (ix3 b i j) = ∑ d : Fin 100, (h (ix3 b i d) * a (ix2 d (0 : Fin 1))) * h (ix3 b j d) := by
  unfold scores
  refine (dotGeneral_rows_apply dot_S32x200x100_S32x200x100_S32x200x200_2_2_1_1_0_0_wf none _ h b i j).trans ?_
  refine Finset.sum_congr rfl fun d _ => ?_
  rw [mulf_apply, spread_apply]

/-- The weighted average at (b, i, d): the sum over the rows j of the weight of (i, j) times row j's entry d. -/
theorem average_apply (w : FVec Ideal S32x200x200 .f32) (h : FVec Ideal S32x200x100 .f32) (b : Fin 32) (i : Fin 200)
    (d : Fin 100) :
    Host.dotGeneral dot_S32x200x200_S32x200x100_S32x200x100_2_1_1_2_0_0 none w h (ix3 b i d)
      = ∑ j : Fin 200, w (ix3 b i j) * h (ix3 b j d) :=
  StackMember.dotGeneral_stack_apply dot_S32x200x200_S32x200x100_S32x200x100_2_1_1_2_0_0_wf none w h b i d

/-! ## Pointwise stages -/

/-- The rectifier at an entry is the specification's leaky rectifier of the entry. -/
theorem rectified_apply (s : FVec Ideal S32x200x200 .f32) (y : S32x200x200.Idx) :
    rectified s y = Cert.Spec.leaky (s y) := by
  unfold rectified Cert.Spec.leaky
  rw [select_apply, cmpf_apply, mulf_apply, broadcastInDim_scalar_apply, broadcastInDim_scalar_apply]
  rfl

/-- The logit at an entry is the specification's choice among the four values there by the relation code there. -/
theorem logits_apply (adj : IVec S32x200x200 32) (e0 e1 e2 e3 : FVec Ideal S32x200x200 .f32) (y : S32x200x200.Idx) :
    logits adj e0 e1 e2 e3 y = Cert.Spec.logit (adj y) (e0 y) (e1 y) (e2 y) (e3 y) := by
  unfold logits Cert.Spec.logit
  simp only [select_apply, broadcastInDim_scalar_apply]
  rfl

/-! ## The two reductions over a row -/

/-- The reduced index (b, i) with the last coordinate k put back is (b, i, k). -/
theorem lift_row (h : S32x200x200.Reduces [2] S32x200) (b : Fin 32) (i : Fin 200) (k : Fin (S32x200x200.size 2)) :
    h.lift (ix2 b i) k = ix3 b i (⟨k.val, k.isLt⟩ : Fin 200) := by
  funext c; apply Fin.ext
  fin_cases c <;> rfl

theorem reduces_row : S32x200x200.Reduces [2] S32x200 := by decide

/-- The row maxima at (b, i): -∞ joined with the fold of max from -∞ over the row's entries. -/
theorem rowMaxima_apply (x : FVec Ideal S32x200x200 .f32) (b : Fin 32) (i : Fin 200) :
    rowMaxima x (ix2 b i)
      = max (Ideal.ofBits .f32 0xFF800000#32)
          ((Finset.univ : Finset (Fin 200)).fold max (Ideal.ofBits .f32 0xFF800000#32) (fun j => x (ix3 b i j))) := by
  unfold rowMaxima
  rw [maximumf_apply, broadcastInDim_scalar_apply,
    Host.reduce_eq_fold_single FloatOps.maximumf x _ reducesTo_S32x200x200_S32x200_d2 reduces_row h_S_]
  have hf : (x ∘ reduces_row.lift (ix2 b i)) = fun k : Fin 200 => x (ix3 b i k) :=
    funext fun k => congrArg x (lift_row reduces_row b i k)
  exact congrArg (fun f => max (Ideal.ofBits .f32 0xFF800000#32)
    (Finset.fold max (Ideal.ofBits .f32 0xFF800000#32) f (Finset.univ : Finset (Fin 200)))) hf

/-- The row sums at (b, i): the sum of the row's entries. -/
theorem rowSums_apply (e : FVec Ideal S32x200x200 .f32) (b : Fin 32) (i : Fin 200) :
    rowSums e (ix2 b i) = ∑ j : Fin 200, e (ix3 b i j) := by
  unfold rowSums
  rw [hostReduceAdd_apply, Ideal.hostReduceAdd_single reducesTo_S32x200x200_S32x200_d2 reduces_row]
  show Ideal.ofBits .f32 0x00000000#32 + _ = _
  rw [Ideal.ofBits_zero_f32, zero_add]
  exact Finset.sum_congr rfl fun k _ => congrArg e (lift_row reduces_row b i k)

/-! ## The softmax -/

/-- The exponentials at (b, i, j): of the entry less its row's maximum. -/
theorem exps_apply (x : FVec Ideal S32x200x200 .f32) (b : Fin 32) (i j : Fin 200) :
    exps x (ix3 b i j) = FloatOps.exp (F := Ideal) (φ := .f32) (x (ix3 b i j) - rowMaxima x (ix2 b i)) := by
  unfold exps
  show FloatOps.hostUnary .exp (subf x (alongRow (rowMaxima x)) (ix3 b i j)) = _
  rw [subf_apply, alongRow_apply]
  rfl

/-- The weights at (b, i, j): the exponential there over the sum of the row's exponentials. -/
theorem weights_apply (x : FVec Ideal S32x200x200 .f32) (b : Fin 32) (i j : Fin 200) :
    weights x (ix3 b i j) = Ideal.div (exps x (ix3 b i j)) (∑ j' : Fin 200, exps x (ix3 b i j')) := by
  unfold weights
  show FloatOps.hostDivf (exps x (ix3 b i j)) (alongRow (rowSums (exps x)) (ix3 b i j)) = _
  rw [alongRow_apply, rowSums_apply]
  rfl

/-- The weights of an array whose batch element b is the table `L`: the softmax of row i of `L` at j, as the
    specification spells it. -/
theorem softmax_at (X : FVec Ideal S32x200x200 .f32) (b : Fin 32) (L : Fin 200 → Fin 200 → EReal)
    (hX : ∀ i j, X (ix3 b i j) = L i j) (i j : Fin 200) :
    weights X (ix3 b i j)
      = Ideal.div
          (FloatOps.exp (F := Ideal) (φ := .f32) (L i j - max (Ideal.ofBits .f32 0xFF800000#32)
            ((Finset.univ : Finset (Fin 200)).fold max (Ideal.ofBits .f32 0xFF800000#32) (fun j' => L i j'))))
          (∑ j'' : Fin 200, FloatOps.exp (F := Ideal) (φ := .f32) (L i j'' - max (Ideal.ofBits .f32 0xFF800000#32)
            ((Finset.univ : Finset (Fin 200)).fold max (Ideal.ofBits .f32 0xFF800000#32) (fun j' => L i j')))) := by
  rw [weights_apply]
  simp only [exps_apply, rowMaxima_apply, hX]

/-! ## The result is the specification -/

section Result

variable (h : FVec Ideal S32x200x100 .f32) (adj : IVec S32x200x200 32) (a0 a1 a2 a3 : FVec Ideal S100x1 .f32)

/-- The logit at (b, i, j) is the specification's logit of the pair (i, j) of batch element b. -/
theorem logit_at (b : Fin 32) (i j : Fin 200) :
    logits adj (rectified (scores h a0)) (rectified (scores h a1)) (rectified (scores h a2)) (rectified (scores h a3))
        (ix3 b i j)
      = Cert.Spec.logitAt (fun j d => h (ix3 b j d)) (fun i j => adj (ix3 b i j)) (fun d => a0 (ix2 d (0 : Fin 1)))
          (fun d => a1 (ix2 d (0 : Fin 1))) (fun d => a2 (ix2 d (0 : Fin 1))) (fun d => a3 (ix2 d (0 : Fin 1))) i j := by
  rw [logits_apply, rectified_apply, rectified_apply, rectified_apply, rectified_apply,
    scores_apply, scores_apply, scores_apply, scores_apply]
  rfl

/-- The composed stages are the specification, entry by entry. -/
theorem resultOf_eq_G : resultOf h adj a0 a1 a2 a3 = Cert.Spec.G h adj a0 a1 a2 a3 := by
  funext y
  obtain ⟨b, i, d, rfl⟩ : ∃ (b : Fin 32) (i : Fin 200) (d : Fin 100), y = ix3 b i d := ⟨y 0, y 1, y 2, eq_ix3 y⟩
  unfold resultOf
  rw [average_apply]
  show _ = Cert.Spec.outAt (fun j d => h (ix3 b j d)) (fun i j => adj (ix3 b i j)) (fun d => a0 (ix2 d (0 : Fin 1)))
    (fun d => a1 (ix2 d (0 : Fin 1))) (fun d => a2 (ix2 d (0 : Fin 1))) (fun d => a3 (ix2 d (0 : Fin 1))) i d
  unfold Cert.Spec.outAt
  refine Finset.sum_congr rfl fun j _ => ?_
  rw [softmax_at _ b _ (logit_at h adj a0 a1 a2 a3 b) i j]
  rfl

end Result

end Cert.ReferenceIdeal.RefPoint

end
-- ==== Proof.RefValue.lean ====
/-
  The reference's run with its result stated by the specification: the result buffer ends at the specification's
  function of the gathered rows, the relation codes and the four relation vectors, and the arguments are unchanged.
  The gathered rows stay the program's own spelling of them (the index normalisation and the gather), never opened.
-/
import proofs.«103132_j84241488544091_2_alg».proof.Proof.RefRun
import proofs.«103132_j84241488544091_2_alg».proof.Proof.RefPoint

noncomputable section

namespace Cert.ReferenceIdeal.RefValue

open Cert.ReferenceIdeal Cert.ReferenceIdeal.Gen Cert.ReferenceIdeal.RefRun Idealize.ShloMosaic Idealize.ShloMosaic.TcCoe Idealize.SL.Sem

/-- The composed stages of the launch contents are the specification of them. -/
theorem res_eq (m : (ℓ : Loc nD τ sig) → Buf (Elt Ideal) ℓ) (c : Dev nD) :
    res m c
      = Cert.Spec.G (gathered (F := Ideal) (m ((c.tc : Thread nD τ).loc main_arg3)) (m ((c.tc : Thread nD τ).loc main_arg0)))
          (m ((c.tc : Thread nD τ).loc main_arg1)) (m ((c.tc : Thread nD τ).loc main_arg4)) (m ((c.tc : Thread nD τ).loc main_arg5))
          (m ((c.tc : Thread nD τ).loc main_arg6)) (m ((c.tc : Thread nD τ).loc main_arg7)) := by
  unfold res
  exact RefPoint.resultOf_eq_G _ _ _ _ _ _

/-- At the ideal values, on every device, from any memory with zero counters: every weakly fair execution of the
    reference's @main terminates with the result at the specification of the arguments and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54)
        = Cert.Spec.G (gathered (F := Ideal) (m ((c.tc : Thread nD τ).loc main_arg3)) (m ((c.tc : Thread nD τ).loc main_arg0)))
          (m ((c.tc : Thread nD τ).loc main_arg1)) (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (res_eq m c), (h c).2⟩) (run m ρ)

end Cert.ReferenceIdeal.RefValue

end
-- ==== Proof.lean ====
/-
  The certificate's five claims.

  Both programs compute, for every batch element, the same function of the gathered embedding rows, the relation codes
  and the four relation vectors: the scores Σ_d (h i d · a d) · h j d of each pair of rows under each relation vector,
  the leaky rectifier, the logit chosen by the pair's relation code (the fill where no relation holds), the row softmax
  spelt the same way on both sides (maximum from -∞, exponential of the difference, sum, quotient), and the weighted sum
  of the rows.  The kernel does it block by block, four batch elements at a grid point, on vectors laid for the matrix
  unit; the reference does it on the whole arrays on the host.  At the ideal instance a change of float format is the
  identity, the matrix unit's product into the zero accumulator and the host's contraction are the same finite sum, and a
  lane reduction and a host reduction are the same sum or the same fold of `max`; so the two results are one function
  (`Cert.Spec.G`) of the argument arrays, and no law that needs finiteness is used: the precondition is never opened.

  The three frames: each program runs to the end, faults nowhere and leaves its arguments as they were — for the two
  kernel programs by the launch theorem over the body's triple, for the reference by its run.  The idealization rewrote
  no operation, so `preserves` has nothing to state.
-/
import proofs.«103132_j84241488544091_2_alg».proof.Defs
import proofs.«103132_j84241488544091_2_alg».proof.Proof.Gen.Kernel
import proofs.«103132_j84241488544091_2_alg».proof.Proof.Gen.KernelIdeal
import proofs.«103132_j84241488544091_2_alg».proof.Proof.Gen.ReferenceIdeal
import proofs.«103132_j84241488544091_2_alg».proof.Proof.Gen.Pre_finite_inputs
import proofs.«103132_j84241488544091_2_alg».proof.Proof.FrameKernel
import proofs.«103132_j84241488544091_2_alg».proof.Proof.FrameKernelIdeal
import proofs.«103132_j84241488544091_2_alg».proof.Proof.KernelValue
import proofs.«103132_j84241488544091_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel [Cert.Kernel.Facts] [Cert.Pre_finite_inputs.Facts] : Cert.frame_Kernel :=
  fun m ρ _ => Cert.Kernel.Fr.frame m ρ

/-- So does the idealized kernel program. -/
theorem frame_kernelIdeal [Cert.KernelIdeal.Facts] [Cert.Pre_finite_inputs.Facts] : Cert.frame_KernelIdeal :=
  fun m ρ _ => Cert.KernelIdeal.Fr.frame m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.RefValue.run_G m ρ)

/-- The two programs spell the gathered rows alike. -/
theorem gathered_eq (emb : Cert.KernelIdeal.S50000x100.Idx → EReal) (inputs : Cert.KernelIdeal.S32x200.Idx → BitVec 32) :
    Cert.ReferenceIdeal.RefRun.gathered (F := Ideal) emb inputs = Cert.KernelIdeal.KVal.gathered emb inputs := rfl

/-- From memories agreeing on the arguments both idealized programs end with the result array at the specification's
    function of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.RefValue.run_G m' ρ')
  obtain ⟨h0, h1, h2, h3, h4, h5, h6, h7⟩ := hagree c
  unfold Cert.KernelIdeal.KVal.result
  rw [h0, h1, h3, h4, h5, h6, h7, gathered_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
